-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x50257 : Shape := ⟨2, ![4096, 50257]⟩
abbrev S4096 : Shape := ⟨1, ![4096]⟩
abbrev S_ : Shape := ⟨0, ![]⟩

class Facts : Prop where
  bcast_S_S4096x50257 : S_.BroadcastsInDim S4096x50257 (![] : Fin 0 → Fin S4096x50257.rank)
  reducesTo_S4096x50257_S_d0_1 : S4096x50257.ReducesTo [0, 1] S_
  h_S_ : 0 < S_.numel

variable [Facts]

def fn {F : FTy → Type} [FloatOps F] (main_arg0 : FVec F S4096x50257 .f32) (main_arg1 : IVec S4096 32) : IVec S_ 1 :=
  let main_v0 : FVec F S4096x50257 .f32 := Host.absf main_arg0
  let main_cst : FVec F S_ .f32 := constant S_ .f32 0x7F800000#32
  let main_v1 : FVec F S4096x50257 .f32 := broadcastInDim S4096x50257 ![] bcast_S_S4096x50257 main_cst
  let main_v2 : IVec S4096x50257 1 := cmpf .olt main_v0 main_v1
  let main_c : IVec S_ 1 := constantI S_ 1 1#1
  let main_v3 : IVec S_ 1 := (fun x v => Host.reduce IntOp.andi x v reducesTo_S4096x50257_S_d0_1 h_S_) main_v2 main_c
  main_v3
-- ==== Kernel.lean ====
abbrev S4096x50257 : Shape := ⟨2, ![4096, 50257]⟩
abbrev S4096 : Shape := ⟨1, ![4096]⟩
abbrev S4096x1 : Shape := ⟨2, ![4096, 1]⟩
abbrev S_ : Shape := ⟨0, ![]⟩
abbrev S4096x1x1 : Shape := ⟨3, ![4096, 1, 1]⟩
abbrev S1 : Shape := ⟨1, ![1]⟩
abbrev S1x1x1 : Shape := ⟨3, ![1, 1, 1]⟩
abbrev S32x50257 : Shape := ⟨2, ![32, 50257]⟩
abbrev S32x1 : Shape := ⟨2, ![32, 1]⟩
abbrev S32 : Shape := ⟨1, ![32]⟩

abbrev nBuf : Space → Nat
  | .hbm => 31
  | .vmem => 6
  | .smem => 0
  | _ => 0

abbrev bufTy : (tb : Table) → Fin (tcTables nBuf tb) → BufTy
  | .hbm, ⟨0, _⟩ => ⟨S4096x50257, .f32⟩
  | .hbm, ⟨1, _⟩ => ⟨S4096, .i32⟩
  | .hbm, ⟨2, _⟩ => ⟨S4096x1, .i32⟩
  | .hbm, ⟨3, _⟩ => ⟨S_, .i32⟩
  | .hbm, ⟨4, _⟩ => ⟨S4096x1, .i32⟩
  | .hbm, ⟨5, _⟩ => ⟨S4096x1, .i1⟩
  | .hbm, ⟨6, _⟩ => ⟨S_, .i32⟩
  | .hbm, ⟨7, _⟩ => ⟨S4096x1, .i32⟩
  | .hbm, ⟨8, _⟩ => ⟨S4096x1, .i32⟩
  | .hbm, ⟨9, _⟩ => ⟨S4096x1, .i32⟩
  | .hbm, ⟨10, _⟩ => ⟨S4096x1x1, .i32⟩
  | .hbm, ⟨11, _⟩ => ⟨S1, .i32⟩
  | .hbm, ⟨12, _⟩ => ⟨S_, .i32⟩
  | .hbm, ⟨13, _⟩ => ⟨S4096x1x1, .i32⟩
  | .hbm, ⟨14, _⟩ => ⟨S4096x1x1, .i1⟩
  | .hbm, ⟨15, _⟩ => ⟨S1x1x1, .i32⟩
  | .hbm, ⟨16, _⟩ => ⟨S4096x1x1, .i32⟩
  | .hbm, ⟨17, _⟩ => ⟨S4096x1x1, .i1⟩
  | .hbm, ⟨18, _⟩ => ⟨S4096x1x1, .i1⟩
  | .hbm, ⟨19, _⟩ => ⟨S_, .i1⟩
  | .hbm, ⟨20, _⟩ => ⟨S4096x1, .i1⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S32x50257, .f32⟩
  | .local _ .vmem, ⟨1, _⟩ => ⟨S32x50257, .f32⟩
  | .local _ .vmem, ⟨2, _⟩ => ⟨S32x1, .f32⟩
  | .local _ .vmem, ⟨3, _⟩ => ⟨S32x1, .f32⟩
  | .local _ .vmem, ⟨4, _⟩ => ⟨S32x1, .f32⟩
  | .local _ .vmem, ⟨5, _⟩ => ⟨S32x1, .f32⟩
  | _, _ => ⟨S4096x50257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_cst_0 : Ref sig .tc := ⟨.hbm, 29, rfl⟩
abbrev main_v5 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x50257 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S4096_S4096x1_0 : S4096.BroadcastsInDim S4096x1 (![0] : Fin 1 → Fin S4096x1.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  h_S_ : 0 < S_.numel
  inb_S32x50257_S32x50257_0_0 : ∀ a, (![0, 0] : Fin 2 → Nat) a + S32x50257.size a ≤ S32x50257.size a
  h_S32x50257 : 0 < S32x50257.numel
  reduces_S32x50257_S32 : S32x50257.Reduces [1] S32
  shapeCasts_S32_S32x1 : S32.ShapeCasts S32x1
  broadcasts_S32x1_S32x50257 : S32x1.Broadcasts S32x50257
  inb_S32x1_S32x1_0_0 : ∀ a, (![0, 0] : Fin 2 → Nat) a + S32x1.size a ≤ S32x1.size a
  h_S32x1 : 0 < S32x1.numel
  shapeCasts_S32x1_S32x1 : S32x1.ShapeCasts S32x1
  shapeCasts_S4096x1_S4096 : S4096x1.ShapeCasts S4096
  reducesTo_S4096_S_d0 : S4096.ReducesTo [0] S_
  gather_S4096x50257_S4096x1x1_S4096x1_n_1_0_0_1_2_11_wf : GatherDims.WF S4096x50257 S4096x1x1 S4096x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x50257.size a ≤ S4096x50257.size a
  hwx0_0 : ∀ i : grid0.Coords, EltTy.bits .f32 = 32 ∨ (Rect.block (s := S4096x50257) S32x50257.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1.size a ≤ S4096x1.size a
  hwx0_1 : ∀ i : grid0.Coords, EltTy.bits .f32 = 32 ∨ (Rect.block (s := S4096x1) S32x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S4096x1.size a
  hwx0_2 : ∀ i : grid0.Coords, EltTy.bits .f32 = 32 ∨ (Rect.block (s := S4096x1) S32x1.size (cc0_transform_2 i) (hinb0_2 i)).WholeWords (EltTy.packing .f32)

variable [Facts₀]

def gather_S4096x50257_S4096x1x1_S4096x1_n_1_0_0_1_2_11 : GatherDims S4096x50257 S4096x1x1 S4096x1 where
  offsetDims := []
  collapsedSliceDims := [1]
  operandBatchingDims := [0]
  startIndicesBatchingDims := [0]
  startIndexMap := [1]
  indexVectorDim := 2
  sliceSizes := ![1, 1]
  wf := gather_S4096x50257_S4096x1x1_S4096x1_n_1_0_0_1_2_11_wf

abbrev win0_0 : Pipeline.Window sig grid0 :=
  Pipeline.Window.ofSpec (Memref.whole main_arg0) S32x50257.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x50257 : Shape := ⟨2, ![4096, 50257]⟩
abbrev S4096 : Shape := ⟨1, ![4096]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 55
  | .vmem => 0
  | .smem => 0
  | _ => 0

abbrev bufTy : (tb : Table) → Fin (tcTables nBuf tb) → BufTy
  | .hbm, ⟨0, _⟩ => ⟨S4096x50257, .f32⟩
  | .hbm, ⟨1, _⟩ => ⟨S4096, .i32⟩
  | .hbm, ⟨2, _⟩ => ⟨S_, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S4096x1, .f32⟩
  | .hbm, ⟨8, _⟩ => ⟨S4096x50257, .f32⟩
  | .hbm, ⟨9, _⟩ => ⟨S4096x50257, .f32⟩
  | .hbm, ⟨10, _⟩ => ⟨S4096x50257, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x1, .f32⟩
  | .hbm, ⟨15, _⟩ => ⟨S4096x50257, .f32⟩
  | .hbm, ⟨16, _⟩ => ⟨S4096x50257, .f32⟩
  | .hbm, ⟨17, _⟩ => ⟨S_, .f32⟩
  | .hbm, ⟨18, _⟩ => ⟨S4096, .f32⟩
  | .hbm, ⟨19, _⟩ => ⟨S4096x1, .i32⟩
  | .hbm, ⟨20, _⟩ => ⟨S_, .i32⟩
  | .hbm, ⟨21, _⟩ => ⟨S4096x1, .i32⟩
  | .hbm, ⟨22, _⟩ => ⟨S4096x1, .i1⟩
  | .hbm, ⟨23, _⟩ => ⟨S_, .i32⟩
  | .hbm, ⟨24, _⟩ => ⟨S4096x1, .i32⟩
  | .hbm, ⟨25, _⟩ => ⟨S4096x1, .i32⟩
  | .hbm, ⟨26, _⟩ => ⟨S4096x1, .i32⟩
  | .hbm, ⟨27, _⟩ => ⟨S4096x1x1, .i32⟩
  | .hbm, ⟨28, _⟩ => ⟨S1, .i32⟩
  | .hbm, ⟨29, _⟩ => ⟨S_, .i32⟩
  | .hbm, ⟨30, _⟩ => ⟨S4096x1x1, .i32⟩
  | .hbm, ⟨31, _⟩ => ⟨S4096x1x1, .i1⟩
  | .hbm, ⟨32, _⟩ => ⟨S1x1x1, .i32⟩
  | .hbm, ⟨33, _⟩ => ⟨S4096x1x1, .i32⟩
  | .hbm, ⟨34, _⟩ => ⟨S4096x1x1, .i1⟩
  | .hbm, ⟨35, _⟩ => ⟨S4096x1x1, .i1⟩
  | .hbm, ⟨36, _⟩ => ⟨S_, .i1⟩
  | .hbm, ⟨37, _⟩ => ⟨S4096x1, .i1⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096, .f32⟩
  | .hbm, ⟨43, _⟩ => ⟨S_, .f32⟩
  | .hbm, ⟨44, _⟩ => ⟨S4096, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096, .f32⟩
  | .hbm, ⟨50, _⟩ => ⟨S4096, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S4096x50257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v3 : Ref sig .tc := ⟨.hbm, 41, rfl⟩
abbrev main_v4 : Ref sig .tc := ⟨.hbm, 42, rfl⟩
abbrev main_cst_0 : Ref sig .tc := ⟨.hbm, 43, rfl⟩
abbrev main_v5 : Ref sig .tc := ⟨.hbm, 44, rfl⟩
abbrev main_v6 : Ref sig .tc := ⟨.hbm, 45, rfl⟩
abbrev main_cst_1 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_cst_2 : Ref sig .tc := ⟨.hbm, 51, rfl⟩
abbrev main_v11 : Ref sig .tc := ⟨.hbm, 52, rfl⟩
abbrev main_cst_3 : Ref sig .tc := ⟨.hbm, 53, rfl⟩
abbrev main_v12 : Ref sig .tc := ⟨.hbm, 54, rfl⟩

abbrev nD : Nat := 1
abbrev τ : Topo := Topo.v7x

variable {F : FTy → Type} [FloatOps F]

class Facts₀ : Prop where
  reducesTo_S4096x50257_S4096_d1 : S4096x50257.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x50257_0_1 : S4096x1.BroadcastsInDim S4096x50257 (![0, 1] : Fin 2 → Fin S4096x50257.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  reducesTo_S4096_S_d0 : S4096.ReducesTo [0] S_
  gather_S4096x50257_S4096x1x1_S4096x1_n_1_0_0_1_2_11_wf : GatherDims.WF S4096x50257 S4096x1x1 S4096x1 [] [1] [0] [1] [0] 2 ![1, 1]

variable [Facts₀]

def gather_S4096x50257_S4096x1x1_S4096x1_n_1_0_0_1_2_11 : GatherDims S4096x50257 S4096x1x1 S4096x1 where
  offsetDims := []
  collapsedSliceDims := [1]
  operandBatchingDims := [0]
  startIndicesBatchingDims := [0]
  startIndexMap := [1]
  indexVectorDim := 2
  sliceSizes := ![1, 1]
  wf := gather_S4096x50257_S4096x1x1_S4096x1_n_1_0_0_1_2_11_wf

class Facts : Prop extends Facts₀ where

variable [Facts]
-- ==== Proof.LibSoftmaxShift.lean ====
/-
  The algebra behind a softmax-weighted sum, on the extended reals.

  For real scores σ d and real features φ d over a finite nonempty index type, and any real shift μ,

      ∑ d, (exp (σ d - μ) / ∑ d', exp (σ d' - μ)) · φ d  =  (∑ d, exp (σ d) · φ d) / (∑ d, exp (σ d)) :

  the shift multiplies numerator and denominator of every weight by the same positive number exp (-μ), and the common
  positive denominator leaves the sum. The same identity is then read on the extended reals, where exp, the quotient and
  the sums are the exact operations of the ideal float values, for entries that are real numbers; and the maximum of
  finitely many real numbers, folded from -∞, is a real number, so it may serve as the shift.
-/
import Idealize.ShloMosaic.PureOps.Ideal

noncomputable section

namespace Cert.SoftmaxLaw

open Idealize.ShloMosaic

/-- The coercion of the reals into the extended reals commutes with finite sums. -/
theorem coe_sum {ι : Type*} (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The shifted softmax weights sum the features to the unshifted quotient, over the reals. -/
theorem real_shift {ι : Type*} [Fintype ι] [Nonempty ι] (σ φ : ι → ℝ) (μ : ℝ) :
    ∑ d, Real.exp (σ d - μ) / (∑ d', Real.exp (σ d' - μ)) * φ d
      = (∑ d, Real.exp (σ d) * φ d) / (∑ d, Real.exp (σ d)) := by
  have hZ : 0 < ∑ d, Real.exp (σ d) := Finset.sum_pos (fun d _ => Real.exp_pos _) Finset.univ_nonempty
  have hμ : 0 < Real.exp μ := Real.exp_pos μ
  have hden : ∑ d', Real.exp (σ d' - μ) = (∑ d', Real.exp (σ d')) / Real.exp μ := by
    rw [Finset.sum_div Finset.univ (fun d' => Real.exp (σ d')) (Real.exp μ)]
    exact Finset.sum_congr rfl fun d _ => Real.exp_sub _ _
  rw [hden, Finset.sum_div Finset.univ (fun d => Real.exp (σ d) * φ d) (∑ d, Real.exp (σ d))]
  refine Finset.sum_congr rfl fun d _ => ?_
  rw [Real.exp_sub]
  field_simp

/-- The sum of exponentials of real scores is a positive real, in particular not zero. -/
theorem sum_exp_ne_zero {ι : Type*} [Fintype ι] [Nonempty ι] (σ : ι → ℝ) : (∑ d, Real.exp (σ d)) ≠ 0 :=
  ne_of_gt (Finset.sum_pos (fun d _ => Real.exp_pos _) Finset.univ_nonempty)

/-- The identity on the extended reals: for scores, features and a shift that are real numbers, the sum from zero of
    the shifted weights (each the exponential over the sum from zero of the exponentials) times the features is the
    quotient of the two unshifted sums. -/
theorem shift {ι : Type*} [Fintype ι] [Nonempty ι] (s f : ι → EReal) (M : EReal) (σ φ : ι → ℝ) (μ : ℝ)
    (hs : ∀ d, s d = (σ d : EReal)) (hf : ∀ d, f d = (φ d : EReal)) (hM : M = (μ : EReal)) :
    (0 : EReal) + ∑ d, Ideal.div (Ideal.exp (s d - M)) (0 + ∑ d', Ideal.exp (s d' - M)) * f d
      = Ideal.div (∑ d, Ideal.exp (s d) * f d) (∑ d, Ideal.exp (s d)) := by
  have e1 : ∀ d, Ideal.exp (s d - M) = ((Real.exp (σ d - μ) : ℝ) : EReal) := fun d => by
    rw [hs d, hM, ← EReal.coe_sub, Ideal.exp_coe]
  have e2 : ∀ d, Ideal.exp (s d) = ((Real.exp (σ d) : ℝ) : EReal) := fun d => by
    rw [hs d, Ideal.exp_coe]
  simp only [e1, e2, hf, zero_add, ← coe_sum, ← EReal.coe_mul]
  rw [Ideal.div_coe (sum_exp_ne_zero σ)]
  simp only [Ideal.div_coe (sum_exp_ne_zero fun d => σ d - μ), ← EReal.coe_mul, ← coe_sum]
  rw [EReal.coe_eq_coe_iff, mul_one_div, ← real_shift σ φ μ]
  exact Finset.sum_congr rfl fun d _ => by rw [mul_one_div]

/-- The fold of max from -∞ over a nonempty finite family of real numbers is a real number. -/
theorem fold_max_real {ι : Type*} (op : EReal → EReal → EReal) [Std.Commutative op] [Std.Associative op]
    (hop : ∀ x y, op x y = max x y) (s : Finset ι) (hne : s.Nonempty) (f : ι → EReal) (hf : ∀ i, ∃ r : ℝ, f i = (r : EReal)) :
    ∃ r : ℝ, s.fold op ⊥ f = (r : EReal) := by
  classical
  have key : ∀ t : Finset ι, (t.fold op ⊥ f = ⊥ ∧ t = ∅) ∨ ∃ r : ℝ, t.fold op ⊥ f = (r : EReal) := by
    intro t
    refine Finset.induction_on t ?_ ?_
    · exact Or.inl ⟨Finset.fold_empty, rfl⟩
    · intro a t ha ih
      refine Or.inr ?_
      rw [Finset.fold_insert ha, hop]
      obtain ⟨ra, hra⟩ := hf a
      rcases ih with ⟨hb, _⟩ | ⟨r, hr⟩
      · rw [hb, hra]; exact ⟨ra, max_eq_left bot_le⟩
      · rw [hr, hra]
        rcases max_choice (ra : EReal) (r : EReal) with h | h
        · exact ⟨ra, h⟩
        · exact ⟨r, h⟩
  rcases key s with ⟨_, he⟩ | h
  · exact absurd he hne.ne_empty
  · exact h

end Cert.SoftmaxLaw

end
-- ==== Proof.Spec.lean ====
/-
  Label-smoothed cross entropy of one row of scores, on the extended reals.

  For a row x of n real scores let M be its maximum and L = log (∑ k, exp (x k - M)), so that x k - M - L is the
  log-probability of class k. With smoothing weights b (every class) and a (the target class, extra), the loss of the row is

      -(b · ∑ k, (x k - M - L) + a · (x j - M - L))

  for the target class j. Two ways of computing it are compared here. One sums the log-probabilities class by class and
  reads the target's log-probability out of them. The other never forms the log-probabilities: it uses

      ∑ k, (x k - M - L) = (∑ k, x k) - n · M - n · L ,

  which holds because all n + 2 numbers are real (subtraction does not distribute over a sum once an infinity is among the
  terms), and it reads the target's raw score x j first and subtracts M and L afterwards. When the target index is out of
  range both read a fill value instead, the junk value -∞ that stands for a NaN: -∞ - M - L is -∞ again, so the two
  still agree.
-/
import Idealize.ShloMosaic.PureOps.Ideal
import Idealize.ShloMosaic.PureOps.Ideal.Laws
import Idealize.ShloMosaic.Lib.ValueIdx
import proofs.«166030_j24386824307043_2_alg».proof.Proof.LibSoftmaxShift

noncomputable section

namespace Cert.SmoothCE

open Idealize.ShloMosaic Idealize.ShloMosaic.ValueIdx

/-! ## The literals that are evaluated -/

/-- The number of classes, 50257.0, as a single-precision pattern. -/
theorem ofBits_classes : Ideal.ofBits .f32 0x47445100#32 = ((50257 : ℝ) : EReal) := by
  simp [Ideal.ofBits, Ideal.ieee, -EReal.coe_mul]; norm_num

/-- The quiet NaN pattern that fills an out-of-range read denotes the junk value -∞. -/
theorem ofBits_nan : Ideal.ofBits .f32 0x7FC00000#32 = (⊥ : EReal) := by
  simp [Ideal.ofBits, Ideal.ieee]

/-- The pattern of -∞, from which a maximum is folded. -/
theorem ofBits_neg_inf : Ideal.ofBits .f32 0xFF800000#32 = (⊥ : EReal) := by
  simp [Ideal.ofBits, Ideal.ieee]

/-! ## One row -/

section Row

variable {ι : Type*} [Fintype ι]

/-- The row's maximum, folded from -∞. -/
def rowMax (x : ι → EReal) : EReal := Finset.univ.fold max ⊥ x

/-- The logarithm of the sum of the exponentials of the scores shifted by the maximum. -/
def rowLse (x : ι → EReal) : EReal := Ideal.log (∑ k, Ideal.exp (x k - rowMax x))

/-- The loss computed from the three row statistics (sum, maximum, log-sum-exp) and the target's raw score g, with the number
    of classes V as a factor. -/
def lossStats (V b a : EReal) (x : ι → EReal) (g : EReal) : EReal :=
  0 - (b * (((∑ k, x k) - V * rowMax x) - V * rowLse x) + a * ((g - rowMax x) - rowLse x))

/-- The loss computed from the log-probabilities summed class by class and the target's log-probability T. -/
def lossLogProbs (b a : EReal) (x : ι → EReal) (T : EReal) : EReal :=
  -(b * (0 + ∑ k, ((x k - rowMax x) - rowLse x)) + a * T)

variable [Nonempty ι]

/-- The maximum of a nonempty row of reals is real. -/
theorem rowMax_real (x : ι → EReal) (hx : ∀ k, ∃ r : ℝ, x k = (r : EReal)) : ∃ r : ℝ, rowMax x = (r : EReal) :=
  Cert.SoftmaxLaw.fold_max_real max (fun _ _ => rfl) Finset.univ Finset.univ_nonempty x hx

/-- The two computations of the loss of a row of reals agree: at a target read in range (the bit is 1) and at the fill value N = -∞
    (the bit is 0). V is the number of classes. -/
theorem loss_eq (V b a : EReal) (hV : V = ((Fintype.card ι : ℝ) : EReal)) (x : ι → EReal)
    (hx : ∀ k, ∃ r : ℝ, x k = (r : EReal)) (bit : BitVec 1) (j : ι) (N : EReal) (hN : N = ⊥) :
    lossStats V b a x (Scalar.select bit (x j) N)
      = lossLogProbs b a x (Scalar.select bit ((x j - rowMax x) - rowLse x) N) := by
  classical
  obtain ⟨μ, hμ⟩ := rowMax_real x hx
  choose ξ hξ using hx
  have hexp : ∀ k, Ideal.exp (x k - rowMax x) = ((Real.exp (ξ k - μ) : ℝ) : EReal) := fun k => by
    rw [hξ k, hμ, ← EReal.coe_sub, Ideal.exp_coe]
  have hpos : 0 < ∑ k, Real.exp (ξ k - μ) := Finset.sum_pos (fun k _ => Real.exp_pos _) Finset.univ_nonempty
  have hL : rowLse x = ((Real.log (∑ k, Real.exp (ξ k - μ)) : ℝ) : EReal) := by
    unfold rowLse
    simp only [hexp, ← Cert.SoftmaxLaw.coe_sum]
    rw [Ideal.log_coe, if_neg (not_le.mpr hpos)]
  have hS : ((∑ k, x k) - V * rowMax x) - V * rowLse x = 0 + ∑ k, ((x k - rowMax x) - rowLse x) := by
    simp only [hξ, hμ, hL, hV, zero_add, ← EReal.coe_sub, ← EReal.coe_mul, ← Cert.SoftmaxLaw.coe_sum]
    rw [EReal.coe_eq_coe_iff]
    simp only [Finset.sum_sub_distrib, Finset.sum_const, Finset.card_univ, nsmul_eq_mul]
  have hT : (Scalar.select bit (x j) N - rowMax x) - rowLse x
      = Scalar.select bit ((x j - rowMax x) - rowLse x) N := by
    rcases BitVec.eq_zero_or_eq_one bit with h0 | h1
    · subst h0
      rw [select_zero, select_zero, hN, EReal.bot_sub, EReal.bot_sub]
    · subst h1
      rw [select_one, select_one]
  unfold lossStats lossLogProbs
  rw [hS, hT, sub_eq_add_neg, zero_add]

end Row

end Cert.SmoothCE

end
-- ==== Proof.LibColumns.lean ====
/-
  Column vectors read at coordinates: the three layout steps of a "keepdims" row reduction.

  A reduction over the last axis of an `[a, n]` array gives a vector `[a]`; kept as a COLUMN it is cast to `[a, 1]`,
  and a column is then either broadcast along a new second axis to `[a, b]` (every entry of row `p` is the column's
  entry `p`) or transposed to the row `[1, a]`. Each lemma reads one of these at an index written with coordinates.
-/
import Idealize.ShloMosaic.Lib.Pipeline.Value
import Idealize.ShloMosaic.Lib.ValueIdx
import Idealize.ShloMosaic.Lib.ValueLayout

namespace Cert.Lib.Columns

open Idealize.ShloMosaic Idealize.ShloMosaic.ValueIdx

variable {α : Type}

/-- A vector `[a]` cast to the column `[a, 1]` reads, at `(p, z)`, the vector at `p`, whatever the unit coordinate `z`:
    both indices have row-major position `p`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` transposed to the row `[1, a]` reads, at `(z, p)`, the column's entry `p`. -/
theorem transpose_a1_1a_apply {a : ℕ} (x : (⟨2, ![a, 1]⟩ : Shape).Idx → α)
    (h : (⟨2, ![a, 1]⟩ : Shape).Transposes [1, 0] ⟨2, ![1, a]⟩) (z : Fin 1) (p : Fin a) :
    transpose ⟨2, ![1, a]⟩ [1, 0] x h (ix2 z p) = x (ix2 p z) :=
  transpose_ix2_apply x h z p

end Cert.Lib.Columns
-- ==== Proof.KernelRow.lean ====
/-
  What the kernel body computes for one row of its block.

  The body loads a block x of 32 rows of 50257 scores and a column g of 32 target scores, one per row. For each row it takes
  the row's maximum M (a reduction by max from -∞ along the row), the sum E of exp (x - M) along the row, the sum S of the
  row, and L = log E, and stores

      0 - (b · ((S - V · M) - V · L) + a · ((g - M) - L))

  where V, b, a are single-precision literals (V is the number of classes). The three reductions give vectors of length 32; each
  is kept as a column [32, 1], and the maximum's column is broadcast back along the row before the subtraction. Read at row p
  this is the row loss `lossStats` of the p-th row of x and the p-th entry of g.

  The stored value is split into its three reductions and the pointwise rest, a function of three vectors of length 32 and the
  target column: the rest is read at a row with the vectors as variables, and each reduction is read at a row by itself.
-/
import proofs.«166030_j24386824307043_2_alg».proof.Proof.Gen.KernelIdeal.Skeleton
import Idealize.ShloMosaic.Lib.Pipeline.Value
import Idealize.ShloMosaic.Lib.ValueIdx
import Idealize.ShloMosaic.PureOps.Ideal.Laws
import proofs.«166030_j24386824307043_2_alg».proof.Proof.Spec
import proofs.«166030_j24386824307043_2_alg».proof.Proof.LibColumns

noncomputable section

namespace Cert.KernelIdeal.RowLoss

open Cert.KernelIdeal Cert.KernelIdeal.Gen Idealize.ShloMosaic Idealize.ShloMosaic.ValueIdx Cert.SmoothCE Cert.Lib.Columns

/-! ## The three reductions -/

/-- The maximum of every row of a block, from -∞. -/
def maxVec (x : FVec Ideal S32x50257 .f32) : FVec Ideal S32 .f32 :=
  multiReduction (F := Ideal) .maximumf [1] S32 x 0xFF800000#32 reduces_S32x50257_S32 (.inl rfl) rfl

/-- The sum of every row of a block, from 0. -/
def sumVec (x : FVec Ideal S32x50257 .f32) : FVec Ideal S32 .f32 :=
  multiReduction (F := Ideal) .add [1] S32 x 0x00000000#32 reduces_S32x50257_S32 (.inl rfl) rfl

/-- The block with a vector M (kept as a column, broadcast along the rows) subtracted from every row, exponentiated. -/
def expShifted (x : FVec Ideal S32x50257 .f32) (M : FVec Ideal S32 .f32) : FVec Ideal S32x50257 .f32 :=
  exp (subf x (broadcastTo S32x50257 (shapeCast S32x1 M shapeCasts_S32_S32x1) broadcasts_S32x1_S32x50257))

/-- Inserting the column k into the row index q gives the index (q, k). -/
theorem lift_row (q : Fin 32) (k : Fin 50257) :
    (reduces_S32x50257_S32 : S32x50257.Reduces [1] S32).lift (ix1 q) k = ix2 q k :=
  funext fun a => Fin.ext (by match a with | ⟨0, _⟩ => rfl | ⟨1, _⟩ => rfl)

/-- The row maxima, read at row q. -/
theorem maxVec_apply (x : FVec Ideal S32x50257 .f32) (q : Fin 32) :
    maxVec x (ix1 q) = rowMax fun k : Fin 50257 => x (ix2 q k) := by
  refine (Ideal.multiReduction_maximumf_single x 0xFF800000#32 reduces_S32x50257_S32 (.inl rfl) rfl (ix1 q)).trans ?_
  show Finset.univ.fold max (Ideal.ofBits .f32 0xFF800000#32) _ = Finset.univ.fold max ⊥ _
  rw [ofBits_neg_inf]
  exact congrArg (fun f : Fin 50257 → EReal => Finset.univ.fold max ⊥ f) (funext fun k => congrArg x (lift_row q k))

/-- The row sums, read at row q. -/
theorem sumVec_apply (x : FVec Ideal S32x50257 .f32) (q : Fin 32) :
    sumVec x (ix1 q) = ∑ k : Fin 50257, x (ix2 q k) := by
  refine (Ideal.multiReduction_add_single x 0x00000000#32 reduces_S32x50257_S32 (.inl rfl) rfl (ix1 q)).trans ?_
  exact Finset.sum_congr rfl fun k _ => congrArg x (lift_row q k)

/-- The shifted exponentials, read at (q, k). -/
theorem expShifted_apply (x : FVec Ideal S32x50257 .f32) (M : FVec Ideal S32 .f32) (q : Fin 32) (k : Fin 50257) :
    expShifted x M (ix2 q k) = Ideal.exp (x (ix2 q k) - M (ix1 q)) := by
  show Ideal.exp (x (ix2 q k) - broadcastTo S32x50257 (shapeCast S32x1 M shapeCasts_S32_S32x1) broadcasts_S32x1_S32x50257 (ix2 q k)) = _
  rw [broadcastTo_a1_ab_apply, shapeCast_a_a1_apply]

/-! ## The pointwise rest -/

/-- What is stored, from the three vectors of row statistics (maxima M, sums S, sums of exponentials E) and the target column g. -/
def combine (M S E : FVec Ideal S32 .f32) (g : FVec Ideal S32x1 .f32) : FVec Ideal S32x1 .f32 :=
  subf (broadcast S32x1 (Scalar.ofBits .f32 0x00000000#32))
    (addf
      (mulf (broadcast S32x1 (Scalar.ofBits .f32 0x3455A78A#32))
        (subf
          (subf (shapeCast S32x1 S shapeCasts_S32_S32x1)
            (mulf (broadcast S32x1 (Scalar.ofBits .f32 0x47445100#32)) (shapeCast S32x1 M shapeCasts_S32_S32x1)))
          (mulf (broadcast S32x1 (Scalar.ofBits .f32 0x47445100#32)) (log (shapeCast S32x1 E shapeCasts_S32_S32x1)))))
      (mulf (broadcast S32x1 (Scalar.ofBits .f32 0x3F7D70A1#32))
        (subf (subf (shapeCast S32x1 g shapeCasts_S32x1_S32x1) (shapeCast S32x1 M shapeCasts_S32_S32x1))
          (log (shapeCast S32x1 E shapeCasts_S32_S32x1)))))

/-- The stored value is the rest of the three reductions of the block. -/
theorem pay_split (x0 : FVec Ideal S32x50257 .f32) (x1 : FVec Ideal S32x1 .f32) :
    k0_pay1 (F := Ideal) x0 x1 = combine (maxVec x0) (sumVec x0) (sumVec (expShifted x0 (maxVec x0))) x1 := rfl

/-- The rest, read at row p. -/
theorem combine_apply (M S E : FVec Ideal S32 .f32) (g : FVec Ideal S32x1 .f32) (p : Fin 32) (z : Fin 1) :
    combine M S E g (ix2 p z)
      = 0 - (Ideal.ofBits .f32 0x3455A78A#32
            * ((S (ix1 p) - Ideal.ofBits .f32 0x47445100#32 * M (ix1 p)) - Ideal.ofBits .f32 0x47445100#32 * Ideal.log (E (ix1 p)))
          + Ideal.ofBits .f32 0x3F7D70A1#32 * ((g (ix2 p z) - M (ix1 p)) - Ideal.log (E (ix1 p)))) := by
  show (Ideal.ofBits .f32 0x00000000#32 : EReal) - (Ideal.ofBits .f32 0x3455A78A#32
        * ((shapeCast S32x1 S shapeCasts_S32_S32x1 (ix2 p z)
            - Ideal.ofBits .f32 0x47445100#32 * shapeCast S32x1 M shapeCasts_S32_S32x1 (ix2 p z))
          - Ideal.ofBits .f32 0x47445100#32 * Ideal.log (shapeCast S32x1 E shapeCasts_S32_S32x1 (ix2 p z)))
      + Ideal.ofBits .f32 0x3F7D70A1#32
        * ((shapeCast S32x1 g shapeCasts_S32x1_S32x1 (ix2 p z) - shapeCast S32x1 M shapeCasts_S32_S32x1 (ix2 p z))
          - Ideal.log (shapeCast S32x1 E shapeCasts_S32_S32x1 (ix2 p z)))) = _
  simp only [Ideal.ofBits_zero_f32, shapeCast_a_a1_apply, shapeCast_self]

/-- The body's stored value at row p: the row loss of the block's row p and the target column's entry p. -/
theorem pay_apply (x0 : FVec Ideal S32x50257 .f32) (x1 : FVec Ideal S32x1 .f32) (p : Fin 32) (z : Fin 1) :
    k0_pay1 (F := Ideal) x0 x1 (ix2 p z)
      = lossStats (Ideal.ofBits .f32 0x47445100#32) (Ideal.ofBits .f32 0x3455A78A#32) (Ideal.ofBits .f32 0x3F7D70A1#32)
          (fun k : Fin 50257 => x0 (ix2 p k)) (x1 (ix2 p z)) := by
  rw [pay_split, combine_apply]
  simp only [maxVec_apply, sumVec_apply, expShifted_apply, lossStats, rowLse]

end Cert.KernelIdeal.RowLoss

end
-- ==== Proof.KernelArray.lean ====
/-
  The per-sample loss array the kernel leaves, and the mean the program returns.

  The grid has 128 points; point t works on rows 32 t … 32 t + 31: its block of the scores is those rows (all 50257 columns), its
  block of the target column and of the output column are those rows of the [4096, 1] arrays. So what point t writes back is rows
  32 t … 32 t + 31 of ONE array G — entry r of G is the row loss of row r of the scores and entry r of the target column — and since
  every row lies in exactly one block (row r in block r / 32), the output array ends holding G.

  The target column is written before the launch by the host: a take-along-the-last-axis of the scores at the labels (wrapped
  when negative), with a fill where a wrapped label is out of range. After the launch the host reshapes the output column to a
  vector, sums it from 0 and divides by 4096.
-/
import proofs.«166030_j24386824307043_2_alg».proof.Proof.Gen.KernelIdeal.Frame
import Idealize.ShloMosaic.Lib.Pipeline.Value
import Idealize.ShloMosaic.Lib.StableHlo.Run
import proofs.«166030_j24386824307043_2_alg».proof.Proof.KernelRow

noncomputable section

namespace Cert.KernelIdeal.RowLoss

open Cert.KernelIdeal Cert.KernelIdeal.Gen Idealize.ShloMosaic Idealize.ShloMosaic.TcCoe Idealize.ShloMosaic.ValueIdx
open Idealize.SL.Sem Idealize.ShloMosaic.StableHlo Cert.SmoothCE
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The per-sample losses as one array of the scores X and the target column T: entry (r, 0) is the row loss of row r of X and
    entry (r, 0) of T. -/
def lossArray (X : S4096x50257.Idx → EReal) (T : S4096x1.Idx → EReal) : S4096x1.Idx → EReal := fun i =>
  lossStats (Ideal.ofBits .f32 0x47445100#32) (Ideal.ofBits .f32 0x3455A78A#32) (Ideal.ofBits .f32 0x3F7D70A1#32)
    (fun k : Fin 50257 => X (ix2 (⟨(i 0).val, idx2_lt0 i⟩ : Fin 4096) k)) (T i)

/-- All three windows are indexed by the grid point along the rows and not at all along the columns. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point t writes back is block t of the loss array of the scores and the target column as the launch finds them. -/
theorem flushed_eq (c : Dev nD) (t : Fin cfg0.N) :
    (dats m 0 c).flushed 2 t
      = ((cfg0.win 2).blk t).view.read (Elt Ideal) (lossArray (V m c main_arg0) (V m c main_v1)) := by
  show (cfg0.win 2).cut (grid0.coords t) ((dats m 0 c).after 2 t) = _
  rw [after0_2]
  unfold out0_2
  rw [View.canon_unit_zero hz]
  simp only [View.ld_unit_zero (S := S32x50257) hz, View.ld_unit_zero (S := S32x1) hz]
  obtain ⟨e00, e01, e10, e11, e20, e21⟩ := idx_facts t
  funext j
  obtain ⟨p, z, rfl⟩ : ∃ (p : Fin 32) (z : Fin 1), j = ix2 p z := ⟨j 0, j 1, eq_ix2 j⟩
  refine (pay_apply (iblk m c 0 t) (iblk m c 1 t) p z).trans ?_
  show lossStats _ _ _ (fun k : Fin 50257 => V m c main_arg0 (((cfg0.win 0).blk t).view.emb (ix2 p k)))
      (V m c main_v1 (((cfg0.win 1).blk t).view.emb (ix2 p z)))
    = lossStats _ _ _ (fun k : Fin 50257 => V m c main_arg0
        (ix2 (⟨((((cfg0.win 2).blk t).view.emb (ix2 p z)) 0).val, idx2_lt0 _⟩ : Fin 4096) k))
      (V m c main_v1 (((cfg0.win 2).blk t).view.emb (ix2 p z)))
  have h0 : ∀ k : Fin 50257, ((cfg0.win 0).blk t).view.emb (ix2 p k)
      = ix2 (⟨((((cfg0.win 2).blk t).view.emb (ix2 p z)) 0).val, idx2_lt0 _⟩ : Fin 4096) k := fun k => by
    funext a; apply Fin.ext
    match a with
    | ⟨0, _⟩ => show win0_0.index t (0 : Fin 2) * 32 + 1 * p.val = win0_2.index t (0 : Fin 2) * 32 + 1 * p.val; omega
    | ⟨1, _⟩ => show win0_0.index t (1 : Fin 2) * 50257 + 1 * k.val = k.val; omega
  have h1 : ((cfg0.win 1).blk t).view.emb (ix2 p z) = ((cfg0.win 2).blk t).view.emb (ix2 p z) := by
    funext a; apply Fin.ext
    match a with
    | ⟨0, _⟩ => show win0_1.index t (0 : Fin 2) * 32 + 1 * p.val = win0_2.index t (0 : Fin 2) * 32 + 1 * p.val; omega
    | ⟨1, _⟩ => show win0_1.index t (1 : Fin 2) * 1 + 1 * z.val = win0_2.index t (1 : Fin 2) * 1 + 1 * z.val; omega
  rw [h1]
  simp only [h0]

/-- An index of the output column is in point t's block iff its row is one of the block's 32 rows. -/
theorem mem_blk (t : Fin cfg0.N) (i : S4096x1.Idx) :
    i ∈ ((cfg0.win 2).blk t).view.set ↔ ∀ a : Fin 2, win0_2.index t a * S32x1.size a ≤ (i a).val ∧ (i a).val < win0_2.index t a * S32x1.size a + S32x1.size a := by
  show i ∈ ((View.whole main_v2).slice (win0_2.rect t)).set ↔ _
  rw [View.set_slice_whole, Rect.mem_set_unit]
  exact Iff.rfl

/-- Every row is in the block of the point row / 32. -/
theorem cover (i : S4096x1.Idx) : ∃ t : Fin cfg0.N, (cfg0.win 2).flush t = true ∧ i ∈ ((cfg0.win 2).blk t).view.set := by
  have hi0 : (i 0).val < 4096 := (i 0).isLt
  have hi1 : (i 1).val < 1 := (i 1).isLt
  have hN : cfg0.N = 128 := N_0
  let t : Fin cfg0.N := ⟨(i 0).val / 32, by rw [hN]; omega⟩
  obtain ⟨-, -, -, -, e20, e21⟩ := idx_facts t
  have ht : t.val = (i 0).val / 32 := rfl
  refine ⟨t, flush0_2 t, ?_⟩
  rw [mem_blk]
  intro a
  match a with
  | ⟨0, _⟩ => show win0_2.index t (0 : Fin 2) * 32 ≤ (i 0).val ∧ (i 0).val < win0_2.index t (0 : Fin 2) * 32 + 32; omega
  | ⟨1, _⟩ => show win0_2.index t (1 : Fin 2) * 1 ≤ (i 1).val ∧ (i 1).val < win0_2.index t (1 : Fin 2) * 1 + 1; omega

/-- The output column after the launch is the loss array. -/
theorem final (c : Dev nD) :
    (dats m 0 c).arrAt 2 cfg0.N = lossArray (V m c main_arg0) (V m c main_v1) :=
  (dats m 0 c).arrAt_eq_of_cover 2 (lossArray (V m c main_arg0) (V m c main_v1)) (fun t _ => flushed_eq m c t) cover

end Cert.KernelIdeal.RowLoss

end
-- ==== Proof.KernelRun.lean ====
/-
  The kernel program's run, read back: the mean of the per-sample losses.

  Before the launch the host computes the target column from the scores x and the labels: a label below 0 has the number of
  classes added; the wrapped label addresses a column of its own row of x; where the wrapped label is not in 0 … 50256 the entry
  is a fill value instead. The launch leaves the loss array of x and that column (the array module). After the launch the host
  reshapes the [4096, 1] loss array to a vector, sums it from 0, and divides by 4096. Every weakly fair execution of the program
  terminates with that mean in the result buffer and the two arguments unchanged.
-/
import proofs.«166030_j24386824307043_2_alg».proof.Proof.KernelArray

noncomputable section

namespace Cert.KernelIdeal.RowLoss

open Cert.KernelIdeal Cert.KernelIdeal.Gen Idealize.ShloMosaic Idealize.ShloMosaic.TcCoe Idealize.ShloMosaic.ValueIdx
open Idealize.SL.Sem Idealize.ShloMosaic.StableHlo Cert.SmoothCE
open Idealize.ShloMosaic.Pipeline (Dat)

/-! ## The host's pieces, as functions -/

/-- The labels as a column, wrapped (a negative label has 50257 added), as the [4096, 1, 1] array of start indices. -/
def wrappedLabels (lab : IVec S4096 32) : IVec S4096x1x1 32 :=
  shapeCast S4096x1x1
    (select (cmpi .slt (broadcastInDim S4096x1 ![0] bcast_S4096_S4096x1_0 lab) (broadcastInDim S4096x1 ![] bcast_S_S4096x1 (constantI S_ 32 0#32)))
      (addi (broadcastInDim S4096x1 ![0] bcast_S4096_S4096x1_0 lab) (broadcastInDim S4096x1 ![] bcast_S_S4096x1 (constantI S_ 32 50257#32)))
      (broadcastInDim S4096x1 ![0] bcast_S4096_S4096x1_0 lab))
    shapeCasts_S4096x1_S4096x1x1

/-- Per row: is the wrapped label in 0 … 50256? -/
def inRange (lab : IVec S4096 32) : IVec S4096x1 1 :=
  Host.reduce IntOp.andi
    (andi (cmpi .sge (wrappedLabels lab) (broadcastInDim S4096x1x1 ![] bcast_S_S4096x1x1 (constantI S_ 32 0#32)))
      (cmpi .sle (wrappedLabels lab)
        (broadcastInDim S4096x1x1 ![0, 1, 2] bcast_S1x1x1_S4096x1x1_0_1_2 (broadcastInDim S1x1x1 ![2] bcast_S1_S1x1x1_2 (constantI S1 32 50256#32)))))
    (constantI S_ 1 1#1) reducesTo_S4096x1x1_S4096x1_d2 h_S_

/-- The target column: the score at the wrapped label where that is in range, the fill value elsewhere. -/
def targetColumn (x : FVec Ideal S4096x50257 .f32) (lab : IVec S4096 32) : FVec Ideal S4096x1 .f32 :=
  select (inRange lab) (Host.gather gather_S4096x50257_S4096x1x1_S4096x1_n_1_0_0_1_2_11 x (wrappedLabels lab))
    (broadcastInDim S4096x1 ![] bcast_S_S4096x1 (constant (F := Ideal) S_ .f32 0x7FC00000#32))

/-- The mean of a vector of 4096 entries: its sum from 0, divided by 4096. -/
def meanOf (v : FVec Ideal S4096 .f32) : FVec Ideal S_ .f32 :=
  Host.divf (F := Ideal) (Host.reduceAdd (F := Ideal) v (constant (F := Ideal) S_ .f32 0x00000000#32) reducesTo_S4096_S_d0 h_S_)
    (constant (F := Ideal) S_ .f32 0x45800000#32)

variable (m : (ℓ : Loc nD τ sig) → Buf (Elt Ideal) ℓ) (ρ : Dev nD → PrngReg)

theorem ty_main_call0_v4 : main_call0_v4.ty = ⟨S4096x1, .i32⟩ := rfl
theorem ty_main_call0_v5 : main_call0_v5.ty = ⟨S4096x1x1, .i32⟩ := rfl
theorem ty_main_v2 : main_v2.ty = ⟨S4096x1, .f32⟩ := rfl
theorem ty_main_v3 : main_v3.ty = ⟨S4096, .f32⟩ := rfl

/-- The launch finds the target column of the launch contents of the two arguments in its second window's array. -/
theorem target_eq (c : Dev nD) :
    (V m c main_v1 : S4096x1.Idx → EReal)
      = targetColumn (m ((c : Thread nD τ).loc main_arg0)) (m ((c : Thread nD τ).loc main_arg1)) := by
  dsimp only [Gen.V, Gen.V0]
  simp only [Gen.hostOps0, Gen.hostOps0_1, List.flatten_cons, List.flatten_nil, List.append_nil, List.cons_append,
    List.nil_append]
  after_results_simp
  simp only [cast_eq]
  dsimp only [ty_main_call0_v4, ty_main_call0_v5]
  eta_reduce
  unfold targetColumn inRange wrappedLabels
  first | (with_reducible rfl) | rfl

/-- The result buffer after the host's last lines: the mean of the loss array, reshaped to a vector. -/
theorem tail_eq (c : Dev nD) :
    Pipeline.afterTail₀ cfgs (dats m) 0 (V0 m) [hostOps1] c main_v5
      = meanOf (shapeCast S4096 ((dats m 0 c).arrAt 2 cfg0.N) shapeCasts_S4096x1_S4096) := by
  have hw : Pipeline.withArrays spec0 c (V0 m c) (fun w => (dats m 0 c).arrAt w cfg0.N) (Proc.devRef .tc main_v2)
      = (dats m 0 c).arrAt 2 cfg0.N := Pipeline.withArrays_arr spec0 launch0.win.arr_inj c _ _ 2
  unfold Pipeline.afterTail₀
  show StableHlo.after hostOps1 _ (Proc.devRef .tc main_v5) = _
  after_results_simp
  dsimp only [ty_main_v2, ty_main_v3]
  eta_reduce
  unfold meanOf
  first | (rw [hw]) | (simp only [hw]) | (trace_state; fail "tail: hw")

/-- The mean the program returns, as a function of the launch contents of its two arguments. -/
def result (x : FVec Ideal S4096x50257 .f32) (lab : IVec S4096 32) : FVec Ideal S_ .f32 :=
  meanOf (shapeCast S4096 (lossArray x (targetColumn x lab)) shapeCasts_S4096x1_S4096)

theorem result_eq (c : Dev nD) :
    Pipeline.afterTail₀ cfgs (dats m) 0 (V0 m) [hostOps1] c main_v5
      = result (m ((c : Thread nD τ).loc main_arg0)) (m ((c : Thread nD τ).loc main_arg1)) := by
  rw [tail_eq, final, target_eq, V_main_arg0]
  rfl

/-- Every weakly fair execution of the kernel program terminates with the mean of the per-sample losses in the result buffer and
    the two arguments unchanged. -/
theorem run : θ_run defs (onTc (τ := τ) (main (F := Ideal))) ⟨m, fun _ => 0, ρ⟩ fun r => ∀ c : Dev nD,
      r.2.mem ((c.tc : Thread nD τ).loc main_v5)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v5 (Pipeline.mem_restRefs_of main_v5 (by decide) (by decide))).trans (result_eq m c),
      ((h c).1 0).trans ((((dats m) 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.RowLoss

end
-- ==== Proof.RefRun.lean ====
/-
  The reference program's run, read back.

  The reference's @main is a straight line of 53 host operations (its two outlined functions, the log-softmax and the
  take-along-axis, standing in their calls' places). Every weakly fair execution of it terminates, leaves the two argument
  arrays as they were, and leaves in the result buffer the value the operations compute from the arguments, composed in
  program order: the last stage `val_main_v12` of the stage-by-stage reading of the program.

  What the result buffer holds after the list is computed in three stretches, each from ARBITRARY
  contents of the buffers: the log-softmax and the row sums of its result (17 operations, from the scores); the take-along-axis
  (23 operations, from the log-softmax's buffer and the labels); the weighting, the negation and the mean (13 operations, from
  the row sums' and the taken column's buffers). Running the list is running the stretches one after the other, and the three
  results compose to the last stage. Within a stretch, a value's contents at its buffer's type and at its tensor type are one thing
  (a cast there and back, or along a reflexive equation), and a reshape is its function rather than that function applied pointwise.
-/
import proofs.«166030_j24386824307043_2_alg».proof.Proof.RefRead
import Idealize.ShloMosaic.Lib.StableHlo.Run

-- one declaration at a time: each stretch's read-back holds a few GiB while it runs
set_option Elab.async false

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- @main's 53 operations, in order (a called function's operations stand in its call's place, spelt `TRef.…`). -/
abbrev ops : List (HloOp τ sig (Elt F)) :=
  [ TRef.nullary (TRef.of (T := ⟨S_, .f32⟩) main_call0_cst) (constant S_ .f32 0xFF800000#32),
    TRef.binary (TRef.of (T := ⟨S4096x50257, .f32⟩) main_arg0) (TRef.of (T := ⟨S_, .f32⟩) main_call0_cst) (TRef.of (T := ⟨S4096, .f32⟩) main_call0_v0) (fun x v => Host.reduce FloatOps.maximumf x v reducesTo_S4096x50257_S4096_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S4096, .f32⟩) main_call0_v1) (broadcastInDim S4096 ![] bcast_S_S4096),
    TRef.binary (TRef.of (T := ⟨S4096, .f32⟩) main_call0_v1) (TRef.of (T := ⟨S4096, .f32⟩) main_call0_v0) (TRef.of (T := ⟨S4096, .f32⟩) main_call0_v2) maximumf,
    TRef.unary (TRef.of (T := ⟨S4096, .f32⟩) main_call0_v2) (TRef.of (T := ⟨S4096x1, .f32⟩) main_call0_v3) (broadcastInDim S4096x1 ![0] bcast_S4096_S4096x1_0),
    TRef.unary (TRef.of (T := ⟨S4096x1, .f32⟩) main_call0_v3) (TRef.of (T := ⟨S4096x50257, .f32⟩) main_call0_v4) (broadcastInDim S4096x50257 ![0, 1] bcast_S4096x1_S4096x50257_0_1),
    TRef.binary (TRef.of (T := ⟨S4096x50257, .f32⟩) main_arg0) (TRef.of (T := ⟨S4096x50257, .f32⟩) main_call0_v4) (TRef.of (T := ⟨S4096x50257, .f32⟩) main_call0_v5) subf,
    TRef.unary (TRef.of (T := ⟨S4096x50257, .f32⟩) main_call0_v5) (TRef.of (T := ⟨S4096x50257, .f32⟩) main_call0_v6) Host.exp,
    TRef.nullary (TRef.of (T := ⟨S_, .f32⟩) main_call0_cst_1) (constant S_ .f32 0x00000000#32),
    TRef.binary (TRef.of (T := ⟨S4096x50257, .f32⟩) main_call0_v6) (TRef.of (T := ⟨S_, .f32⟩) main_call0_cst_1) (TRef.of (T := ⟨S4096, .f32⟩) main_call0_v7) (fun x v => Host.reduceAdd x v reducesTo_S4096x50257_S4096_d1 h_S_),
    TRef.unary (TRef.of (T := ⟨S4096, .f32⟩) main_call0_v7) (TRef.of (T := ⟨S4096x1, .f32⟩) main_call0_v8) (broadcastInDim S4096x1 ![0] bcast_S4096_S4096x1_0),
    TRef.unary (TRef.of (T := ⟨S4096x1, .f32⟩) main_call0_v8) (TRef.of (T := ⟨S4096x1, .f32⟩) main_call0_v9) Host.log,
    TRef.unary (TRef.of (T := ⟨S4096x1, .f32⟩) main_call0_v9) (TRef.of (T := ⟨S4096x50257, .f32⟩) main_call0_v10) (broadcastInDim S4096x50257 ![0, 1] bcast_S4096x1_S4096x50257_0_1),
    TRef.binary (TRef.of (T := ⟨S4096x50257, .f32⟩) main_call0_v5) (TRef.of (T := ⟨S4096x50257, .f32⟩) main_call0_v10) (TRef.of (T := ⟨S4096x50257, .f32⟩) main_v0) subf,
    nullary main_cst (constant S_ .f32 0x00000000#32),
    binary main_v0 main_cst main_v1 ((fun x v => Host.reduceAdd x v reducesTo_S4096x50257_S4096_d1 h_S_) : (⟨S4096x50257, .f32⟩ : BufTy).Contents (Elt F) → (⟨S_, .f32⟩ : BufTy).Contents (Elt F) → (⟨S4096, .f32⟩ : BufTy).Contents (Elt F)),
    unary main_arg1 main_v2 (broadcastInDim S4096x1 ![0] bcast_S4096_S4096x1_0 : (⟨S4096, .i32⟩ : BufTy).Contents (Elt F) → (⟨S4096x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S4096x1, .i32⟩) main_call1_v0) (broadcastInDim S4096x1 ![] bcast_S_S4096x1),
    TRef.binary (TRef.of (T := ⟨S4096x1, .i32⟩) main_v2) (TRef.of (T := ⟨S4096x1, .i32⟩) main_call1_v0) (TRef.of (T := ⟨S4096x1, .i1⟩) main_call1_v1) (cmpi .slt),
    TRef.nullary (TRef.of (T := ⟨S_, .i32⟩) main_call1_c_0) (constantI S_ 32 50257#32),
    TRef.unary (TRef.of (T := ⟨S_, .i32⟩) main_call1_c_0) (TRef.of (T := ⟨S4096x1, .i32⟩) main_call1_v2) (broadcastInDim S4096x1 ![] bcast_S_S4096x1),
    TRef.binary (TRef.of (T := ⟨S4096x1, .i32⟩) main_v2) (TRef.of (T := ⟨S4096x1, .i32⟩) main_call1_v2) (TRef.of (T := ⟨S4096x1, .i32⟩) main_call1_v3) addi,
    TRef.ternary (TRef.of (T := ⟨S4096x1, .i1⟩) main_call1_v1) (TRef.of (T := ⟨S4096x1, .i32⟩) main_call1_v3) (TRef.of (T := ⟨S4096x1, .i32⟩) main_v2) (TRef.of (T := ⟨S4096x1, .i32⟩) main_call1_v4) select,
    TRef.reshape (TRef.of (T := ⟨S4096x1, .i32⟩) main_call1_v4) (TRef.of (T := ⟨S4096x1x1, .i32⟩) main_call1_v5) rfl shapeCasts_S4096x1_S4096x1x1,
    TRef.nullary (TRef.of (T := ⟨S1, .i32⟩) main_call1_c_1) (constantI S1 32 50256#32),
    TRef.nullary (TRef.of (T := ⟨S_, .i32⟩) main_call1_c_2) (constantI S_ 32 0#32),
    TRef.unary (TRef.of (T := ⟨S_, .i32⟩) main_call1_c_2) (TRef.of (T := ⟨S4096x1x1, .i32⟩) main_call1_v6) (broadcastInDim S4096x1x1 ![] bcast_S_S4096x1x1),
    TRef.binary (TRef.of (T := ⟨S4096x1x1, .i32⟩) main_call1_v5) (TRef.of (T := ⟨S4096x1x1, .i32⟩) main_call1_v6) (TRef.of (T := ⟨S4096x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S4096x1x1, .i32⟩) main_call1_v9) (broadcastInDim S4096x1x1 ![0, 1, 2] bcast_S1x1x1_S4096x1x1_0_1_2),
    TRef.binary (TRef.of (T := ⟨S4096x1x1, .i32⟩) main_call1_v5) (TRef.of (T := ⟨S4096x1x1, .i32⟩) main_call1_v9) (TRef.of (T := ⟨S4096x1x1, .i1⟩) main_call1_v10) (cmpi .sle),
    TRef.binary (TRef.of (T := ⟨S4096x1x1, .i1⟩) main_call1_v7) (TRef.of (T := ⟨S4096x1x1, .i1⟩) main_call1_v10) (TRef.of (T := ⟨S4096x1x1, .i1⟩) main_call1_v11) andi,
    TRef.nullary (TRef.of (T := ⟨S_, .i1⟩) main_call1_c_3) (constantI S_ 1 1#1),
    TRef.binary (TRef.of (T := ⟨S4096x1x1, .i1⟩) main_call1_v11) (TRef.of (T := ⟨S_, .i1⟩) main_call1_c_3) (TRef.of (T := ⟨S4096x1, .i1⟩) main_call1_v12) (fun x v => Host.reduce IntOp.andi x v reducesTo_S4096x1x1_S4096x1_d2 h_S_),
    TRef.binary (TRef.of (T := ⟨S4096x50257, .f32⟩) main_v0) (TRef.of (T := ⟨S4096x1x1, .i32⟩) main_call1_v5) (TRef.of (T := ⟨S4096x1, .f32⟩) main_call1_v13) (fun x i => Host.gather gather_S4096x50257_S4096x1x1_S4096x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S4096x1, .f32⟩) main_call1_v14) (broadcastInDim S4096x1 ![] bcast_S_S4096x1),
    TRef.ternary (TRef.of (T := ⟨S4096x1, .i1⟩) main_call1_v12) (TRef.of (T := ⟨S4096x1, .f32⟩) main_call1_v13) (TRef.of (T := ⟨S4096x1, .f32⟩) main_call1_v14) (TRef.of (T := ⟨S4096x1, .f32⟩) main_v3) select,
    reshape main_v3 main_v4 rfl shapeCasts_S4096x1_S4096,
    nullary main_cst_0 (constant S_ .f32 0x3455A78A#32),
    unary main_cst_0 main_v5 (broadcastInDim S4096 ![] bcast_S_S4096 : (⟨S_, .f32⟩ : BufTy).Contents (Elt F) → (⟨S4096, .f32⟩ : BufTy).Contents (Elt F)),
    binary main_v5 main_v1 main_v6 (mulf : (⟨S4096, .f32⟩ : BufTy).Contents (Elt F) → (⟨S4096, .f32⟩ : BufTy).Contents (Elt F) → (⟨S4096, .f32⟩ : BufTy).Contents (Elt F)),
    nullary main_cst_1 (constant S_ .f32 0x3F7D70A1#32),
    unary main_cst_1 main_v7 (broadcastInDim S4096 ![] bcast_S_S4096 : (⟨S_, .f32⟩ : BufTy).Contents (Elt F) → (⟨S4096, .f32⟩ : BufTy).Contents (Elt F)),
    binary main_v7 main_v4 main_v8 (mulf : (⟨S4096, .f32⟩ : BufTy).Contents (Elt F) → (⟨S4096, .f32⟩ : BufTy).Contents (Elt F) → (⟨S4096, .f32⟩ : BufTy).Contents (Elt F)),
    binary main_v6 main_v8 main_v9 (addf : (⟨S4096, .f32⟩ : BufTy).Contents (Elt F) → (⟨S4096, .f32⟩ : BufTy).Contents (Elt F) → (⟨S4096, .f32⟩ : BufTy).Contents (Elt F)),
    unary main_v9 main_v10 (Host.negf : (⟨S4096, .f32⟩ : BufTy).Contents (Elt F) → (⟨S4096, .f32⟩ : BufTy).Contents (Elt F)),
    nullary main_cst_2 (constant S_ .f32 0x00000000#32),
    binary main_v10 main_cst_2 main_v11 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_3 (constant S_ .f32 0x45800000#32),
    binary main_v11 main_cst_3 main_v12 (Host.divf : (⟨S_, .f32⟩ : BufTy).Contents (Elt F) → (⟨S_, .f32⟩ : BufTy).Contents (Elt F) → (⟨S_, .f32⟩ : BufTy).Contents (Elt F)) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., nullary_bufs_sub .., unary_bufs_sub .., binary_bufs_sub .., nullary_bufs_sub .., unary_bufs_sub .., binary_bufs_sub .., binary_bufs_sub .., unary_bufs_sub .., nullary_bufs_sub .., binary_bufs_sub .., nullary_bufs_sub .., binary_bufs_sub ..⟩

/-! ## The three stretches -/

/-- The log-softmax of the scores and the sums of its rows: operations 1 to 17. -/
abbrev opsA : List (HloOp τ sig (Elt F)) :=
  [ TRef.nullary (TRef.of (T := ⟨S_, .f32⟩) main_call0_cst) (constant S_ .f32 0xFF800000#32),
    TRef.binary (TRef.of (T := ⟨S4096x50257, .f32⟩) main_arg0) (TRef.of (T := ⟨S_, .f32⟩) main_call0_cst) (TRef.of (T := ⟨S4096, .f32⟩) main_call0_v0) (fun x v => Host.reduce FloatOps.maximumf x v reducesTo_S4096x50257_S4096_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S4096, .f32⟩) main_call0_v1) (broadcastInDim S4096 ![] bcast_S_S4096),
    TRef.binary (TRef.of (T := ⟨S4096, .f32⟩) main_call0_v1) (TRef.of (T := ⟨S4096, .f32⟩) main_call0_v0) (TRef.of (T := ⟨S4096, .f32⟩) main_call0_v2) maximumf,
    TRef.unary (TRef.of (T := ⟨S4096, .f32⟩) main_call0_v2) (TRef.of (T := ⟨S4096x1, .f32⟩) main_call0_v3) (broadcastInDim S4096x1 ![0] bcast_S4096_S4096x1_0),
    TRef.unary (TRef.of (T := ⟨S4096x1, .f32⟩) main_call0_v3) (TRef.of (T := ⟨S4096x50257, .f32⟩) main_call0_v4) (broadcastInDim S4096x50257 ![0, 1] bcast_S4096x1_S4096x50257_0_1),
    TRef.binary (TRef.of (T := ⟨S4096x50257, .f32⟩) main_arg0) (TRef.of (T := ⟨S4096x50257, .f32⟩) main_call0_v4) (TRef.of (T := ⟨S4096x50257, .f32⟩) main_call0_v5) subf,
    TRef.unary (TRef.of (T := ⟨S4096x50257, .f32⟩) main_call0_v5) (TRef.of (T := ⟨S4096x50257, .f32⟩) main_call0_v6) Host.exp,
    TRef.nullary (TRef.of (T := ⟨S_, .f32⟩) main_call0_cst_1) (constant S_ .f32 0x00000000#32),
    TRef.binary (TRef.of (T := ⟨S4096x50257, .f32⟩) main_call0_v6) (TRef.of (T := ⟨S_, .f32⟩) main_call0_cst_1) (TRef.of (T := ⟨S4096, .f32⟩) main_call0_v7) (fun x v => Host.reduceAdd x v reducesTo_S4096x50257_S4096_d1 h_S_),
    TRef.unary (TRef.of (T := ⟨S4096, .f32⟩) main_call0_v7) (TRef.of (T := ⟨S4096x1, .f32⟩) main_call0_v8) (broadcastInDim S4096x1 ![0] bcast_S4096_S4096x1_0),
    TRef.unary (TRef.of (T := ⟨S4096x1, .f32⟩) main_call0_v8) (TRef.of (T := ⟨S4096x1, .f32⟩) main_call0_v9) Host.log,
    TRef.unary (TRef.of (T := ⟨S4096x1, .f32⟩) main_call0_v9) (TRef.of (T := ⟨S4096x50257, .f32⟩) main_call0_v10) (broadcastInDim S4096x50257 ![0, 1] bcast_S4096x1_S4096x50257_0_1),
    TRef.binary (TRef.of (T := ⟨S4096x50257, .f32⟩) main_call0_v5) (TRef.of (T := ⟨S4096x50257, .f32⟩) main_call0_v10) (TRef.of (T := ⟨S4096x50257, .f32⟩) main_v0) subf,
    nullary main_cst (constant S_ .f32 0x00000000#32),
    binary main_v0 main_cst main_v1 ((fun x v => Host.reduceAdd x v reducesTo_S4096x50257_S4096_d1 h_S_) : (⟨S4096x50257, .f32⟩ : BufTy).Contents (Elt F) → (⟨S_, .f32⟩ : BufTy).Contents (Elt F) → (⟨S4096, .f32⟩ : BufTy).Contents (Elt F)) ]

/-- The labels as a column and the take-along-axis of the log-softmax at them: operations 18 to 40. -/
abbrev opsB : List (HloOp τ sig (Elt F)) :=
  [ unary main_arg1 main_v2 (broadcastInDim S4096x1 ![0] bcast_S4096_S4096x1_0 : (⟨S4096, .i32⟩ : BufTy).Contents (Elt F) → (⟨S4096x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S4096x1, .i32⟩) main_call1_v0) (broadcastInDim S4096x1 ![] bcast_S_S4096x1),
    TRef.binary (TRef.of (T := ⟨S4096x1, .i32⟩) main_v2) (TRef.of (T := ⟨S4096x1, .i32⟩) main_call1_v0) (TRef.of (T := ⟨S4096x1, .i1⟩) main_call1_v1) (cmpi .slt),
    TRef.nullary (TRef.of (T := ⟨S_, .i32⟩) main_call1_c_0) (constantI S_ 32 50257#32),
    TRef.unary (TRef.of (T := ⟨S_, .i32⟩) main_call1_c_0) (TRef.of (T := ⟨S4096x1, .i32⟩) main_call1_v2) (broadcastInDim S4096x1 ![] bcast_S_S4096x1),
    TRef.binary (TRef.of (T := ⟨S4096x1, .i32⟩) main_v2) (TRef.of (T := ⟨S4096x1, .i32⟩) main_call1_v2) (TRef.of (T := ⟨S4096x1, .i32⟩) main_call1_v3) addi,
    TRef.ternary (TRef.of (T := ⟨S4096x1, .i1⟩) main_call1_v1) (TRef.of (T := ⟨S4096x1, .i32⟩) main_call1_v3) (TRef.of (T := ⟨S4096x1, .i32⟩) main_v2) (TRef.of (T := ⟨S4096x1, .i32⟩) main_call1_v4) select,
    TRef.reshape (TRef.of (T := ⟨S4096x1, .i32⟩) main_call1_v4) (TRef.of (T := ⟨S4096x1x1, .i32⟩) main_call1_v5) rfl shapeCasts_S4096x1_S4096x1x1,
    TRef.nullary (TRef.of (T := ⟨S1, .i32⟩) main_call1_c_1) (constantI S1 32 50256#32),
    TRef.nullary (TRef.of (T := ⟨S_, .i32⟩) main_call1_c_2) (constantI S_ 32 0#32),
    TRef.unary (TRef.of (T := ⟨S_, .i32⟩) main_call1_c_2) (TRef.of (T := ⟨S4096x1x1, .i32⟩) main_call1_v6) (broadcastInDim S4096x1x1 ![] bcast_S_S4096x1x1),
    TRef.binary (TRef.of (T := ⟨S4096x1x1, .i32⟩) main_call1_v5) (TRef.of (T := ⟨S4096x1x1, .i32⟩) main_call1_v6) (TRef.of (T := ⟨S4096x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S4096x1x1, .i32⟩) main_call1_v9) (broadcastInDim S4096x1x1 ![0, 1, 2] bcast_S1x1x1_S4096x1x1_0_1_2),
    TRef.binary (TRef.of (T := ⟨S4096x1x1, .i32⟩) main_call1_v5) (TRef.of (T := ⟨S4096x1x1, .i32⟩) main_call1_v9) (TRef.of (T := ⟨S4096x1x1, .i1⟩) main_call1_v10) (cmpi .sle),
    TRef.binary (TRef.of (T := ⟨S4096x1x1, .i1⟩) main_call1_v7) (TRef.of (T := ⟨S4096x1x1, .i1⟩) main_call1_v10) (TRef.of (T := ⟨S4096x1x1, .i1⟩) main_call1_v11) andi,
    TRef.nullary (TRef.of (T := ⟨S_, .i1⟩) main_call1_c_3) (constantI S_ 1 1#1),
    TRef.binary (TRef.of (T := ⟨S4096x1x1, .i1⟩) main_call1_v11) (TRef.of (T := ⟨S_, .i1⟩) main_call1_c_3) (TRef.of (T := ⟨S4096x1, .i1⟩) main_call1_v12) (fun x v => Host.reduce IntOp.andi x v reducesTo_S4096x1x1_S4096x1_d2 h_S_),
    TRef.binary (TRef.of (T := ⟨S4096x50257, .f32⟩) main_v0) (TRef.of (T := ⟨S4096x1x1, .i32⟩) main_call1_v5) (TRef.of (T := ⟨S4096x1, .f32⟩) main_call1_v13) (fun x i => Host.gather gather_S4096x50257_S4096x1x1_S4096x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S4096x1, .f32⟩) main_call1_v14) (broadcastInDim S4096x1 ![] bcast_S_S4096x1),
    TRef.ternary (TRef.of (T := ⟨S4096x1, .i1⟩) main_call1_v12) (TRef.of (T := ⟨S4096x1, .f32⟩) main_call1_v13) (TRef.of (T := ⟨S4096x1, .f32⟩) main_call1_v14) (TRef.of (T := ⟨S4096x1, .f32⟩) main_v3) select ]

/-- The weighting of the two parts, the negation and the mean: operations 41 to 53. -/
abbrev opsC : List (HloOp τ sig (Elt F)) :=
  [ reshape main_v3 main_v4 rfl shapeCasts_S4096x1_S4096,
    nullary main_cst_0 (constant S_ .f32 0x3455A78A#32),
    unary main_cst_0 main_v5 (broadcastInDim S4096 ![] bcast_S_S4096 : (⟨S_, .f32⟩ : BufTy).Contents (Elt F) → (⟨S4096, .f32⟩ : BufTy).Contents (Elt F)),
    binary main_v5 main_v1 main_v6 (mulf : (⟨S4096, .f32⟩ : BufTy).Contents (Elt F) → (⟨S4096, .f32⟩ : BufTy).Contents (Elt F) → (⟨S4096, .f32⟩ : BufTy).Contents (Elt F)),
    nullary main_cst_1 (constant S_ .f32 0x3F7D70A1#32),
    unary main_cst_1 main_v7 (broadcastInDim S4096 ![] bcast_S_S4096 : (⟨S_, .f32⟩ : BufTy).Contents (Elt F) → (⟨S4096, .f32⟩ : BufTy).Contents (Elt F)),
    binary main_v7 main_v4 main_v8 (mulf : (⟨S4096, .f32⟩ : BufTy).Contents (Elt F) → (⟨S4096, .f32⟩ : BufTy).Contents (Elt F) → (⟨S4096, .f32⟩ : BufTy).Contents (Elt F)),
    binary main_v6 main_v8 main_v9 (addf : (⟨S4096, .f32⟩ : BufTy).Contents (Elt F) → (⟨S4096, .f32⟩ : BufTy).Contents (Elt F) → (⟨S4096, .f32⟩ : BufTy).Contents (Elt F)),
    unary main_v9 main_v10 (Host.negf : (⟨S4096, .f32⟩ : BufTy).Contents (Elt F) → (⟨S4096, .f32⟩ : BufTy).Contents (Elt F)),
    nullary main_cst_2 (constant S_ .f32 0x00000000#32),
    binary main_v10 main_cst_2 main_v11 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_3 (constant S_ .f32 0x45800000#32),
    binary main_v11 main_cst_3 main_v12 (Host.divf : (⟨S_, .f32⟩ : BufTy).Contents (Elt F) → (⟨S_, .f32⟩ : BufTy).Contents (Elt F) → (⟨S_, .f32⟩ : BufTy).Contents (Elt F)) ]

set_option maxRecDepth 8192 in
theorem ops_split : (ops : List (HloOp τ sig (Elt F))) = opsA ++ (opsB ++ opsC) := rfl

/-- Running a list of operations is running its first part, then the rest from what that left. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Contents moved to a typed reference's buffer type and back are the contents. -/
theorem ofBuf_toBuf {T : BufTy} (x : TRef sig T) (v : T.Contents (Elt F)) : x.ofBuf (x.toBuf v) = v := by
  unfold TRef.ofBuf TRef.toBuf
  rw [cast_cast, cast_eq]

/-! ### The log-softmax and its row sums -/

set_option maxHeartbeats 1000000 in
theorem afterA_v0 (V : Valuation τ sig (Elt F)) :
    after (opsA (F := F)) V (Proc.devRef .tc main_v0) = val_main_v0 (F := F) (V (Proc.devRef .tc main_arg0)) := by
  after_results_simp
  simp only [ofBuf_toBuf]
  simp only [cast_eq]
  simp only [val_main_call0_cst, val_main_call0_v0, val_main_call0_cst_0, val_main_call0_v1, val_main_call0_v2, val_main_call0_v3, val_main_call0_v4, val_main_call0_v5, val_main_call0_v6, val_main_call0_cst_1, val_main_call0_v7, val_main_call0_v8, val_main_call0_v9, val_main_call0_v10, val_main_v0]
  first | done | with_reducible_and_instances rfl

set_option maxHeartbeats 1000000 in
theorem afterA_v1 (V : Valuation τ sig (Elt F)) :
    after (opsA (F := F)) V (Proc.devRef .tc main_v1) = val_main_v1 (F := F) (V (Proc.devRef .tc main_arg0)) := by
  after_results_simp
  simp only [ofBuf_toBuf]
  simp only [cast_eq]
  simp only [val_main_call0_cst, val_main_call0_v0, val_main_call0_cst_0, val_main_call0_v1, val_main_call0_v2, val_main_call0_v3, val_main_call0_v4, val_main_call0_v5, val_main_call0_v6, val_main_call0_cst_1, val_main_call0_v7, val_main_call0_v8, val_main_call0_v9, val_main_call0_v10, val_main_v0, val_main_cst, val_main_v1]
  first | done | with_reducible_and_instances rfl

theorem afterA_arg1 (V : Valuation τ sig (Elt F)) :
    after (opsA (F := F)) V (Proc.devRef .tc main_arg1) = V (Proc.devRef .tc main_arg1) := by
  after_results_simp <;> rfl

/-! ### The take-along-axis -/

/-- The column taken out of an array y at the wrapped labels: y's entry where the wrapped label is in range, the fill elsewhere. -/
def taken (y : (⟨S4096x50257, .f32⟩ : BufTy).Contents (Elt F)) (x1 : (⟨S4096, .i32⟩ : BufTy).Contents (Elt F)) :
    (⟨S4096x1, .f32⟩ : BufTy).Contents (Elt F) :=
  select (val_main_call1_v12 (F := F) x1)
    (Host.gather gather_S4096x50257_S4096x1x1_S4096x1_n_1_0_0_1_2_11 y (val_main_call1_v5 (F := F) x1))
    (val_main_call1_v14 (F := F))

set_option maxHeartbeats 1000000 in
theorem afterB_v3 (V : Valuation τ sig (Elt F)) :
    after (opsB (F := F)) V (Proc.devRef .tc main_v3)
      = taken (F := F) (V (Proc.devRef .tc main_v0)) (V (Proc.devRef .tc main_arg1)) := by
  after_results_simp
  simp only [ofBuf_toBuf]
  simp only [cast_eq]
  eta_reduce
  simp only [taken, val_main_v2, val_main_call1_c, val_main_call1_v0, val_main_call1_v1, val_main_call1_c_0, val_main_call1_v2, val_main_call1_v3, val_main_call1_v4, val_main_call1_v5, val_main_call1_c_1, val_main_call1_c_2, val_main_call1_v6, val_main_call1_v7, val_main_call1_v8, val_main_call1_v9, val_main_call1_v10, val_main_call1_v11, val_main_call1_c_3, val_main_call1_v12, val_main_call1_cst, val_main_call1_v14]
  first | done | with_reducible_and_instances rfl

theorem afterB_v1 (V : Valuation τ sig (Elt F)) :
    after (opsB (F := F)) V (Proc.devRef .tc main_v1) = V (Proc.devRef .tc main_v1) := by
  after_results_simp <;> rfl

/-! ### The weighting and the mean -/

/-- The result from the row sums s and the taken column t. -/
def weighted (s : (⟨S4096, .f32⟩ : BufTy).Contents (Elt F)) (t : (⟨S4096x1, .f32⟩ : BufTy).Contents (Elt F)) :
    (⟨S_, .f32⟩ : BufTy).Contents (Elt F) :=
  Host.divf
    (Host.reduceAdd
      (Host.negf (addf (mulf (val_main_v5 (F := F)) s) (mulf (val_main_v7 (F := F)) (shapeCast _ t shapeCasts_S4096x1_S4096))))
      (val_main_cst_2 (F := F)) reducesTo_S4096_S_d0 h_S_)
    (val_main_cst_3 (F := F))

set_option maxHeartbeats 1000000 in
theorem afterC_v12 (V : Valuation τ sig (Elt F)) :
    after (opsC (F := F)) V (Proc.devRef .tc main_v12)
      = weighted (F := F) (V (Proc.devRef .tc main_v1)) (V (Proc.devRef .tc main_v3)) := by
  after_results_simp
  eta_reduce
  simp only [weighted, val_main_v5, val_main_v7, val_main_cst_0, val_main_cst_1, val_main_cst_2, val_main_cst_3]
  first | done | with_reducible_and_instances rfl

/-! ## The whole list -/

/-- After the 53 operations, from any contents V of the buffers, the result buffer holds the last stage of the two argument
    buffers' contents. -/
theorem after_result (V : Valuation τ sig (Elt F)) :
    after (ops (F := F)) V (Proc.devRef .tc main_v12)
      = val_main_v12 (F := F) (V (Proc.devRef .tc main_arg0)) (V (Proc.devRef .tc main_arg1)) := by
  rw [ops_split, after_append, after_append, afterC_v12, afterB_v3, afterB_v1, afterA_v0, afterA_v1, afterA_arg1]
  rfl

set_option maxRecDepth 8192 in
set_option maxHeartbeats 2000000 in
/-- On every device, from any memory with zero counters: every weakly fair execution of @main terminates with the result
    buffer at the last stage of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12)
        = val_main_v12 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v12).trans (after_result fun b => m (c, b)),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.RefRun

end
-- ==== Proof.LibGatherRow.lean ====
/-
  A gather of one element per row, read at an index.

  `take_along_axis` of an `[R, N]` array along its last axis with one index per row lowers to a gather whose operand axis 0 is
  a BATCHING axis (paired with axis 0 of the `[R, 1, 1]` start indices), whose operand axis 1 is collapsed and is the axis the start
  index addresses, and whose result is `[R, 1]`. Result element `(r, 0)` is then read from ROW `r` of the operand — whatever the
  start index says, since the start index only moves along the row (and is clamped into it). This file states those dimension
  numbers once and proves that fact: coordinate 0 of the operand index the gather reads at result index `j` is `j`'s coordinate 0.
-/
import Idealize.ShloMosaic.PureOps
import Idealize.ShloMosaic.Lib.ValueIdx

namespace Cert.Lib.GatherRow

open Idealize.ShloMosaic

/-- The dimension numbers of a take-along-the-last-axis with one index per row: operand `[R, N]`, start indices `[R, 1, 1]`,
    result `[R, 1]`; no offset axes, operand axis 1 collapsed and addressed by the start index, axis 0 batching on both sides,
    the index vector on the start indices' axis 2, slices of one element. -/
abbrev rowTakeDims (R N : Nat)
    (wf : GatherDims.WF ⟨2, ![R, N]⟩ ⟨3, ![R, 1, 1]⟩ ⟨2, ![R, 1]⟩ [] [1] [0] [1] [0] 2 ![1, 1]) :
    GatherDims ⟨2, ![R, N]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- The operand index read at result index `j` lies in row `j 0`: on the batching axis the start is 0, the offset is 0, and the
    batching coordinate is `j`'s coordinate on the paired result axis. -/
theorem operandIdx_row {R N w : Nat}
    (wf : GatherDims.WF ⟨2, ![R, N]⟩ ⟨3, ![R, 1, 1]⟩ ⟨2, ![R, 1]⟩ [] [1] [0] [1] [0] 2 ![1, 1])
    (idx : IVec ⟨3, ![R, 1, 1]⟩ w) (j : (⟨2, ![R, 1]⟩ : Shape).Idx) :
    (((rowTakeDims R N wf).operandIdx j idx) 0).val = (j 0).val := by
  show (rowTakeDims R N wf).start j idx 0 + (rowTakeDims R N wf).batchCoord j 0 + (rowTakeDims R N wf).offCoord j 0 = _
  rw [GatherDims.start_batching _ _ _ _ (List.mem_singleton.mpr rfl),
    GatherDims.offCoord_eq_zero _ _ _ (fun h => ((GatherDims.mem_sKept _ _).mp h).2 (List.mem_singleton.mpr rfl))]
  simp only [Nat.zero_add, Nat.add_zero]
  unfold GatherDims.batchCoord
  rw [dif_pos (show (0 : Fin 2) ∈ (rowTakeDims R N wf).operandBatchingDims from List.mem_singleton.mpr rfl)]
  rfl

/-- So the gather, read at `j`, is the operand at an index of row `j 0`: at `(j 0, k)` for the column `k` the (clamped) start
    index selects. The column depends on the start indices only, not on the operand. -/
theorem gather_row {α : Type} {R N w : Nat}
    (wf : GatherDims.WF ⟨2, ![R, N]⟩ ⟨3, ![R, 1, 1]⟩ ⟨2, ![R, 1]⟩ [] [1] [0] [1] [0] 2 ![1, 1])
    (x : (⟨2, ![R, N]⟩ : Shape).Idx → α) (idx : IVec ⟨3, ![R, 1, 1]⟩ w) (j : (⟨2, ![R, 1]⟩ : Shape).Idx) :
    Host.gather (rowTakeDims R N wf) x idx j
      = x (ValueIdx.ix2 (j 0) (((rowTakeDims R N wf).operandIdx j idx) 1)) := by
  show x ((rowTakeDims R N wf).operandIdx j idx) = _
  refine congrArg x ?_
  funext a
  match a with
  | ⟨0, _⟩ => exact Fin.ext (operandIdx_row wf idx j)
  | ⟨1, _⟩ => rfl

end Cert.Lib.GatherRow
-- ==== Proof.LibFinite.lean ====
/-
  Finiteness read back from a printed "all entries finite" test, at the ideal float values
  (every float an extended real). The test of one array x is the conjunction over all indices of
  |x i| < +∞, where |x| is max x (-x) and +∞ is the value of the IEEE pattern 0x7F800000; it
  is printed as a reduction by "and" of the array of comparison bits, from the constant 1, into a
  result with a single index.

  Contents.
  * one element: |x| < +∞ (as a comparison bit equal to 1) makes x a real number;
  * one array: a reduction by "and" over all axes of those bits that is 1 makes every entry real;
  * the empty-rank shape has one index.
-/
import Idealize.ShloMosaic.Lib.ReduceAll
import Idealize.ShloMosaic.PureOps.Ideal

noncomputable section

namespace Cert.Finite

open Idealize.ShloMosaic

/-- An extended real that is neither infinity is a real number. -/
theorem exists_real_of_ne {x : EReal} (ht : x ≠ ⊤) (hb : x ≠ ⊥) : ∃ r : ℝ, x = (r : EReal) := by
  induction x using EReal.rec with
  | bot => exact absurd rfl hb
  | coe r => exact ⟨r, rfl⟩
  | top => exact absurd rfl ht

/-- The IEEE single-precision pattern 0x7F800000 denotes +∞. -/
theorem ofBits_inf : Ideal.ofBits .f32 0x7F800000#32 = (⊤ : EReal) := by
  simp [Ideal.ofBits, Ideal.ieee]

/-- For an extended real x, max x (-x) < ⊤ exactly when x is neither infinity. -/
theorem abs_lt_top_iff (x : EReal) : max x (-x) < ⊤ ↔ x ≠ ⊤ ∧ x ≠ ⊥ := by
  rw [max_lt_iff, lt_top_iff_ne_top, lt_top_iff_ne_top]
  constructor
  · rintro ⟨h1, h2⟩
    exact ⟨h1, fun hb => h2 (by rw [hb]; rfl)⟩
  · rintro ⟨h1, h2⟩
    exact ⟨h1, fun ht => h2 (by simpa using ht)⟩

/-- One element: if the comparison bit of |x| < +∞ is 1 then x is a real number. Here |x| is the
    host's absolute value max x (-x) and +∞ is given by its bit pattern. -/
theorem real_of_abs_lt_inf (x : Ideal .f32)
    (h : FloatOps.cmpf (F := Ideal) .olt (FloatOps.hostAbsf (F := Ideal) x)
        (FloatOps.ofBits (F := Ideal) .f32 0x7F800000#32) = 1#1) : ∃ r : ℝ, (x : EReal) = (r : EReal) := by
  have h' : Ideal.cmp .olt (max (x : EReal) (-(x : EReal))) (Ideal.ofBits .f32 0x7F800000#32) = 1#1 := h
  rw [ofBits_inf] at h'
  unfold Ideal.cmp at h'
  have hlt : max (x : EReal) (-(x : EReal)) < ⊤ := by
    by_contra hn
    simp [hn] at h'
  obtain ⟨ht, hb⟩ := (abs_lt_top_iff x).mp hlt
  exact exists_real_of_ne ht hb

/-- One array: if the reduction by "and" over all axes (into a result with one index) of the bits
    |x i| < inf i is 1, where every inf i is the pattern of +∞, then every entry of x is real. -/
theorem real_of_all {s t u : Shape} {axes : List (Fin s.rank)} [Subsingleton t.Idx]
    (x inf : FVec Ideal s .f32) (hinf : ∀ i, inf i = FloatOps.ofBits (F := Ideal) .f32 0x7F800000#32)
    (init : IVec u 1) (h : s.ReducesTo axes t) (hu : 0 < u.numel) (j : t.Idx)
    (e : Host.reduce IntOp.andi (cmpf (F := Ideal) .olt (Host.absf (F := Ideal) x) inf) init h hu j = 1#1)
    (i : s.Idx) : ∃ r : ℝ, (x i : EReal) = (r : EReal) := by
  have hi := Host.reduce_andi_all _ init h hu j e i
  refine real_of_abs_lt_inf (x i) ?_
  rw [← hinf i]
  exact hi

/-- The shape of rank zero has exactly one index. -/
instance subsingleton_idx_rank0 : Subsingleton (Shape.Idx ⟨0, ![]⟩) :=
  ⟨fun a b => funext fun d => d.elim0⟩

end Cert.Finite

end
-- ==== Proof.Bridge.lean ====
/-
  The two programs compute the same mean.

  Row by row. The reference forms the log-probabilities of row r, x k - M - L with M the row's maximum and L the logarithm of
  the sum of exp (x k - M), sums them from 0, reads the target's log-probability out of them at the wrapped label (a fill value
  where that is out of range), and returns -(b · sum + a · target). The kernel program reads the target's raw score first (same
  wrapped label, same fill, same in-range test: the host lines are the same on both sides), and the kernel computes the row loss
  from the row's sum, maximum and log-sum-exp. For a row of real scores these agree (the row law). Both programs then take the
  mean of the 4096 row losses in the same way, so the results are equal.

  The scores are real because the precondition says so: its test |x| < +∞, taken over all entries, is 1.
-/
import proofs.«166030_j24386824307043_2_alg».proof.Proof.KernelRun
import proofs.«166030_j24386824307043_2_alg».proof.Proof.RefRead
import proofs.«166030_j24386824307043_2_alg».proof.Proof.LibGatherRow
import proofs.«166030_j24386824307043_2_alg».proof.Proof.LibFinite
import proofs.«166030_j24386824307043_2_alg».proof.Pre_finite_inputs
import proofs.«166030_j24386824307043_2_alg».proof.Proof.Gen.Pre_finite_inputs
import Idealize.ShloMosaic.Lib.ReduceAll

noncomputable section

namespace Cert.Bridge

open Idealize.ShloMosaic Idealize.ShloMosaic.ValueIdx Cert.SmoothCE Cert.Lib.GatherRow
open Cert.ReferenceIdeal Cert.ReferenceIdeal.Gen Cert.ReferenceIdeal.ReadP

abbrev Scores := (⟨2, ![4096, 50257]⟩ : Shape).Idx → EReal
abbrev Labels := IVec ⟨1, ![4096]⟩ 32

/-- Row r of the scores. -/
abbrev row (x : Scores) (r : Fin 4096) : Fin 50257 → EReal := fun k => x (ix2 r k)

instance : Nonempty (Fin 50257) := ⟨⟨0, by norm_num⟩⟩

/-! ## The reference, row by row -/

section Reference

variable (x : Scores)

/-! The index functions of the reference's layout steps, at coordinates. -/

theorem idx_col_row (r : Fin 4096) (k : Fin 50257) : idx_main_call0_v3 (idx_main_call0_v4 (ix2 r k)) = ix1 r :=
  funext fun a => Fin.ext (by match a with | ⟨0, _⟩ => rfl)
theorem idx_col_row' (r : Fin 4096) (k : Fin 50257) : idx_main_call0_v8 (idx_main_call0_v10 (ix2 r k)) = ix1 r :=
  funext fun a => Fin.ext (by match a with | ⟨0, _⟩ => rfl)
theorem idx_sum_exp (r : Fin 4096) (k : Fin 50257) : idx_main_call0_v7 (ix1 r) k = ix2 r k :=
  funext fun a => Fin.ext (by match a with | ⟨0, _⟩ => rfl | ⟨1, _⟩ => rfl)
theorem idx_sum_logp (r : Fin 4096) (k : Fin 50257) : idx_main_v1 (ix1 r) k = ix2 r k :=
  funext fun a => Fin.ext (by match a with | ⟨0, _⟩ => rfl | ⟨1, _⟩ => rfl)

/-- The reference's row maximum (a fold of max from -∞, then a max with -∞ again) is the row's maximum. -/
theorem ref_max (r : Fin 4096) : val_main_call0_v2 (F := Ideal) x (ix1 r) = rowMax (row x r) := by
  rw [val_main_call0_v2_apply]
  show max (Ideal.ofBits .f32 0xFF800000#32) (val_main_call0_v0 (F := Ideal) x (ix1 r)) = _
  have hred : S4096x50257.Reduces [1] S4096 := by decide
  have e : val_main_call0_v0 (F := Ideal) x (ix1 r) = rowMax (row x r) := by
    unfold val_main_call0_v0
    refine (Host.reduce_eq_fold_single (FloatOps.maximumf (F := Ideal) (φ := .f32)) x (val_main_call0_cst (F := Ideal))
      reducesTo_S4096x50257_S4096_d1 hred h_S_ (ix1 r)).trans ?_
    show Finset.univ.fold max (Ideal.ofBits .f32 0xFF800000#32) _ = Finset.univ.fold max ⊥ _
    rw [ofBits_neg_inf]
    exact congrArg (fun f : Fin 50257 → EReal => Finset.univ.fold max ⊥ f)
      (funext fun k => congrArg x (funext fun a => Fin.ext (by match a with | ⟨0, _⟩ => rfl | ⟨1, _⟩ => rfl)))
  rw [e, ofBits_neg_inf]
  exact max_eq_right bot_le

/-- The shifted score. -/
theorem ref_shift (r : Fin 4096) (k : Fin 50257) :
    val_main_call0_v5 (F := Ideal) x (ix2 r k) = x (ix2 r k) - rowMax (row x r) := by
  rw [val_main_call0_v5_apply, val_main_call0_v4_apply, val_main_call0_v3_apply, idx_col_row, ref_max]
  rfl

/-- The sum of the exponentials of the shifted scores of row r. -/
theorem ref_sumexp (r : Fin 4096) :
    val_main_call0_v7 (F := Ideal) x (ix1 r) = ∑ k : Fin 50257, Ideal.exp (row x r k - rowMax (row x r)) := by
  rw [val_main_call0_v7_apply]
  simp only [idx_sum_exp, val_main_call0_v6_apply, ref_shift, val_main_call0_cst_1_apply, Ideal.ofBits_def, Ideal.ofBits_zero_f32,
    zero_add, Ideal.hostUnary_exp_def]

/-- The log-sum-exp of row r, as every entry of the row sees it. -/
theorem ref_lse (r : Fin 4096) (k : Fin 50257) :
    val_main_call0_v10 (F := Ideal) x (ix2 r k) = rowLse (row x r) := by
  rw [val_main_call0_v10_apply, val_main_call0_v9_apply, val_main_call0_v8_apply, idx_col_row', ref_sumexp,
    Ideal.hostUnary_log_def]
  rfl

/-- The log-probability of class k in row r. -/
theorem ref_logp (r : Fin 4096) (k : Fin 50257) :
    val_main_v0 (F := Ideal) x (ix2 r k) = (row x r k - rowMax (row x r)) - rowLse (row x r) := by
  rw [val_main_v0_apply, ref_shift, ref_lse]
  rfl

/-- The log-probabilities of row r summed from 0. -/
theorem ref_sumlogp (r : Fin 4096) :
    val_main_v1 (F := Ideal) x (ix1 r) = 0 + ∑ k : Fin 50257, ((row x r k - rowMax (row x r)) - rowLse (row x r)) := by
  rw [val_main_v1_apply]
  simp only [idx_sum_logp, ref_logp, val_main_cst_apply, Ideal.ofBits_def, Ideal.ofBits_zero_f32]

variable (lab : Labels)

/-- The column the take-along-axis reads in row r: it depends on the wrapped labels only. -/
def column (r : Fin 4096) : Fin 50257 :=
  ((rowTakeDims 4096 50257 Facts₀.gather_S4096x50257_S4096x1x1_S4096x1_n_1_0_0_1_2_11_wf).operandIdx
    (ix2 r (0 : Fin 1)) (val_main_call1_v5 (F := Ideal) lab)) 1

/-- The reference's target log-probability of row r. -/
theorem ref_target (r : Fin 4096) :
    val_main_v4 (F := Ideal) x lab (ix1 r)
      = Scalar.select (val_main_call1_v12 (F := Ideal) lab (ix2 r (0 : Fin 1)))
          ((row x r (column lab r) - rowMax (row x r)) - rowLse (row x r)) (Ideal.ofBits .f32 0x7FC00000#32) := by
  rw [val_main_v4_apply]
  have hi : idx_main_v4 (ix1 r) = ix2 r (0 : Fin 1) :=
    funext fun a => Fin.ext (by match a with | ⟨0, _⟩ => exact Nat.div_one _ | ⟨1, _⟩ => rfl)
  rw [hi, val_main_v3_apply]
  have hg : val_main_call1_v13 (F := Ideal) x lab (ix2 r (0 : Fin 1)) = val_main_v0 (F := Ideal) x (ix2 r (column lab r)) :=
    gather_row Facts₀.gather_S4096x50257_S4096x1x1_S4096x1_n_1_0_0_1_2_11_wf (val_main_v0 (F := Ideal) x)
      (val_main_call1_v5 (F := Ideal) lab) (ix2 r (0 : Fin 1))
  rw [hg, ref_logp]
  rfl

/-- The reference's loss of row r. -/
theorem ref_row (r : Fin 4096) :
    val_main_v10 (F := Ideal) x lab (ix1 r)
      = lossLogProbs (Ideal.ofBits .f32 0x3455A78A#32) (Ideal.ofBits .f32 0x3F7D70A1#32) (row x r)
          (Scalar.select (val_main_call1_v12 (F := Ideal) lab (ix2 r (0 : Fin 1)))
            ((row x r (column lab r) - rowMax (row x r)) - rowLse (row x r)) (Ideal.ofBits .f32 0x7FC00000#32)) := by
  rw [val_main_v10_apply, val_main_v9_apply, val_main_v6_apply, val_main_v8_apply, val_main_v5_apply, val_main_v7_apply]
  show -(Ideal.ofBits .f32 0x3455A78A#32 * val_main_v1 (F := Ideal) x (ix1 r)
      + Ideal.ofBits .f32 0x3F7D70A1#32 * val_main_v4 (F := Ideal) x lab (ix1 r)) = _
  rw [ref_sumlogp, ref_target]
  rfl

end Reference

/-! ## The kernel program, row by row -/

open Cert.KernelIdeal.RowLoss in
/-- The kernel program's loss of row r: the row loss from the statistics, at the target's raw score. -/
theorem kernel_row (x : Scores) (lab : Labels) (r : Fin 4096) :
    shapeCast Cert.KernelIdeal.S4096 (lossArray x (targetColumn x lab)) Cert.KernelIdeal.Gen.shapeCasts_S4096x1_S4096 (ix1 r)
      = lossStats (Ideal.ofBits .f32 0x47445100#32) (Ideal.ofBits .f32 0x3455A78A#32) (Ideal.ofBits .f32 0x3F7D70A1#32) (row x r)
          (Scalar.select (val_main_call1_v12 (F := Ideal) lab (ix2 r (0 : Fin 1))) (row x r (column lab r))
            (Ideal.ofBits .f32 0x7FC00000#32)) := by
  refine (shapeCast_apply (lossArray x (targetColumn x lab)) Cert.KernelIdeal.Gen.shapeCasts_S4096x1_S4096 (ix1 r)
    (ix2 r (0 : Fin 1)) (by rw [Shape.rowMajor_val_two, Shape.rowMajor_val_one]; show r.val * 1 + 0 = r.val; omega)).trans ?_
  unfold lossArray
  have hg : targetColumn x lab (ix2 r (0 : Fin 1))
      = Scalar.select (val_main_call1_v12 (F := Ideal) lab (ix2 r (0 : Fin 1))) (row x r (column lab r))
          (Ideal.ofBits .f32 0x7FC00000#32) := by
    show Scalar.select (inRange lab (ix2 r (0 : Fin 1)))
      (Host.gather (rowTakeDims 4096 50257 Cert.KernelIdeal.Facts₀.gather_S4096x50257_S4096x1x1_S4096x1_n_1_0_0_1_2_11_wf) x
        (wrappedLabels lab) (ix2 r (0 : Fin 1))) (Ideal.ofBits .f32 0x7FC00000#32) = _
    rw [gather_row]
    rfl
  rw [hg]

/-! ## The results -/

/-- For real scores the kernel program's mean is the reference's. -/
theorem result_eq (x : Scores) (lab : Labels) (hx : ∀ i, ∃ r : ℝ, x i = (r : EReal)) :
    Cert.KernelIdeal.RowLoss.result x lab = val_main_v12 (F := Ideal) x lab := by
  have hvec : shapeCast Cert.KernelIdeal.S4096 (Cert.KernelIdeal.RowLoss.lossArray x (Cert.KernelIdeal.RowLoss.targetColumn x lab))
      Cert.KernelIdeal.Gen.shapeCasts_S4096x1_S4096 = val_main_v10 (F := Ideal) x lab := by
    funext i
    obtain ⟨r, rfl⟩ : ∃ r : Fin 4096, i = ix1 r := ⟨i 0, eq_ix1 i⟩
    rw [kernel_row, ref_row]
    exact loss_eq _ _ _ (by rw [ofBits_classes, Fintype.card_fin]; norm_num) (row x r) (fun k => hx _) _ (column lab r) _ ofBits_nan
  unfold Cert.KernelIdeal.RowLoss.result Cert.KernelIdeal.RowLoss.meanOf
  rw [hvec]
  unfold val_main_v12 val_main_v11 val_main_cst_2 val_main_cst_3
  first | (with_reducible rfl) | rfl

/-! ## The scores are real -/

/-- Under the precondition every score is a real number. -/
theorem scores_real (x : Scores) (lab : Labels)
    (h : Cert.Pre_finite_inputs.fn (F := Ideal) x lab = fun _ => 1#1) (i : (⟨2, ![4096, 50257]⟩ : Shape).Idx) :
    ∃ r : ℝ, x i = (r : EReal) := by
  have e := congrFun h ix0
  dsimp only [Cert.Pre_finite_inputs.fn] at e
  exact Cert.Finite.real_of_all x _ (fun _ => rfl) _ _ _ ix0 e i

end Cert.Bridge

end
-- ==== Proof.lean ====
/-
  The certificate: the kernel program and its reference compute the same label-smoothed cross entropy.

  Both programs take scores x : [4096, 50257] and labels : [4096] and return the mean over the 4096 rows of

      -(b · ∑ k, log p k + a · log p label) ,   log p k = x k - M - L ,

  with M the row's maximum and L the logarithm of the sum of exp (x k - M). The reference forms the log-probabilities and sums
  them. The kernel streams each row once, keeping only its sum, its maximum and its sum of shifted exponentials, and uses
  ∑ k, (x k - M - L) = ∑ k, x k - n · M - n · L, which needs every number involved to be real: that is what the precondition
  (every score finite) provides. The target's score is gathered by the host before the launch, on both sides with the same
  wrap-around of negative labels and the same fill for a label out of range; the fill is an infinity at the ideal values, and it
  stays that infinity when M and L are subtracted from it.

  The three frame claims are the generated frame runs of the two kernel programs and the reference's run; the idealization
  rewrote nothing, so it preserves the program trivially.
-/
import proofs.«166030_j24386824307043_2_alg».proof.Defs
import proofs.«166030_j24386824307043_2_alg».proof.Proof.Gen.Kernel
import proofs.«166030_j24386824307043_2_alg».proof.Proof.Gen.Kernel.Frame
import proofs.«166030_j24386824307043_2_alg».proof.Proof.Gen.KernelIdeal
import proofs.«166030_j24386824307043_2_alg».proof.Proof.Gen.KernelIdeal.Frame
import proofs.«166030_j24386824307043_2_alg».proof.Proof.Gen.ReferenceIdeal
import proofs.«166030_j24386824307043_2_alg».proof.Proof.Gen.Pre_finite_inputs
import proofs.«166030_j24386824307043_2_alg».proof.Proof.KernelRun
import proofs.«166030_j24386824307043_2_alg».proof.Proof.RefRun
import proofs.«166030_j24386824307043_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.RefRun.run (F := Ideal) m ρ)

/-- From memories that agree on the scores and the labels, with finite scores, the two programs end with the same mean. -/
theorem algebraic : Cert.algebraic_KernelIdeal_ReferenceIdeal := by
  intro m ρ m' ρ' hpre hagree
  refine ⟨fun c => Cert.KernelIdeal.RowLoss.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.RowLoss.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact (Cert.Bridge.result_eq _ _ (Cert.Bridge.scores_real _ _ (hpre c))).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
